-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S512 .f32) (main_arg6 : FVec F S512x64 .f32) (main_arg7 : FVec F S64 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S3x128x128 .f32) (main_arg3 : FVec F S3x128 .f32) (main_arg4 : FVec F S128x512 .f32) (main_arg5 : FVec F S512 .f32) (main_arg6 : FVec F S512x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S800000x128 : Shape := ⟨2, ![800000, 128]⟩
abbrev S5000x1 : Shape := ⟨2, ![5000, 1]⟩
abbrev S1x512 : Shape := ⟨2, ![1, 512]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S2000x512 : Shape := ⟨2, ![2000, 512]⟩

abbrev nBuf : Space → Nat
  | .hbm => 113
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S128x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x128, .f32⟩
  | .hbm, ⟨104, _⟩ => ⟨S800000x128, .f32⟩
  | .hbm, ⟨105, _⟩ => ⟨S_, .f32⟩
  | .hbm, ⟨106, _⟩ => ⟨S50000x128, .f32⟩
  | .hbm, ⟨107, _⟩ => ⟨S800000x1, .i32⟩
  | .hbm, ⟨108, _⟩ => ⟨S50000x128, .f32⟩
  | .hbm, ⟨109, _⟩ => ⟨S50000x128, .f32⟩
  | .hbm, ⟨110, _⟩ => ⟨S1x512, .f32⟩
  | .hbm, ⟨111, _⟩ => ⟨S1x64, .f32⟩
  | .hbm, ⟨112, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S2000x128, .f32⟩
  | .local _ .vmem, ⟨43, _⟩ => ⟨S2000x128, .f32⟩
  | .local _ .vmem, ⟨44, _⟩ => ⟨S128x512, .f32⟩
  | .local _ .vmem, ⟨45, _⟩ => ⟨S1x512, .f32⟩
  | .local _ .vmem, ⟨46, _⟩ => ⟨S512x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_11 : Ref sig .tc := ⟨.hbm, 94, rfl⟩
abbrev main_v73 : Ref sig .tc := ⟨.hbm, 95, rfl⟩
abbrev main_v74 : Ref sig .tc := ⟨.hbm, 96, rfl⟩
abbrev main_c_12 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S512_S1x512 : S512.ShapeCasts S1x512
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x64_S2000x64_1_0_0_1_n_n_wf : DotDims.WF S2000x512 S512x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .f32 = 32 ∨ (Rect.block (s := S128x512) S128x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x64.size a ≤ S512x64.size a
  hwx6_3 : ∀ i : grid6.Coords, EltTy.bits .f32 = 32 ∨ (Rect.block (s := S512x64) S512x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S512x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v87) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x512 : Shape := ⟨2, ![50000, 512]⟩
abbrev S1x512 : Shape := ⟨2, ![1, 512]⟩
abbrev S50000x64 : Shape := ⟨2, ![50000, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S128x512, .f32⟩
  | 5 => ⟨S512, .f32⟩
  | 6 => ⟨S512x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S1x128x128, .f32⟩
  | 13 => ⟨S128x128, .f32⟩
  | 14 => ⟨S1x128, .f32⟩
  | 15 => ⟨S128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S800000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x128x128, .f32⟩
  | 7 => ⟨S128x128, .f32⟩
  | 8 => ⟨S1x128, .f32⟩
  | 9 => ⟨S128, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x512, .f32⟩
  | 68 => ⟨S1x512, .f32⟩
  | 69 => ⟨S50000x512, .f32⟩
  | 70 => ⟨S50000x512, .f32⟩
  | 71 => ⟨S_, .f32⟩
  | 72 => ⟨S50000x512, .f32⟩
  | 73 => ⟨S50000x512, .f32⟩
  | 74 => ⟨S50000x64, .f32⟩
  | 75 => ⟨S1x64, .f32⟩
  | 76 => ⟨S50000x64, .f32⟩
  | 77 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_cst : Ref sig .tc := ⟨.hbm, 70, rfl⟩
abbrev main_call0_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_15 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_call1_cst : Ref sig .tc := ⟨.hbm, 131, rfl⟩
abbrev main_call1_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_18 : Ref sig .tc := ⟨.hbm, 138, rfl⟩
abbrev main_v106 : Ref sig .tc := ⟨.hbm, 139, rfl⟩
abbrev main_cst_19 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_21 : Ref sig .tc := ⟨.hbm, 149, rfl⟩
abbrev main_v114 : Ref sig .tc := ⟨.hbm, 150, rfl⟩
abbrev main_v115 : Ref sig .tc := ⟨.hbm, 151, rfl⟩
abbrev main_c_22 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_23 : Ref sig .tc := ⟨.hbm, 158, rfl⟩
abbrev main_v121 : Ref sig .tc := ⟨.hbm, 159, rfl⟩
abbrev main_v122 : Ref sig .tc := ⟨.hbm, 160, rfl⟩
abbrev main_c_24 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_25 : Ref sig .tc := ⟨.hbm, 169, rfl⟩
abbrev main_v130 : Ref sig .tc := ⟨.hbm, 170, rfl⟩
abbrev main_v131 : Ref sig .tc := ⟨.hbm, 171, rfl⟩
abbrev main_c_26 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_27 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_call2_cst : Ref sig .tc := ⟨.hbm, 192, rfl⟩
abbrev main_call2_v0 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_call3_cst : Ref sig .tc := ⟨.hbm, 199, rfl⟩
abbrev main_call3_v0 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x64_S50000x64_1_0_0_1_n_n_wf : DotDims.WF S50000x512 S512x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf

class Facts : Prop extends Facts₀ where

variable [Facts]
-- ==== Proof.KRun.lean ====
/-
  The idealized kernel's run with its result named.

  @main is seven pallas_call regions among stretches of host operations. Run from any memory, every weakly fair
  execution terminates without a fault, and at the end every unscoped buffer of a core holds what the fold through the
  fourteen segments leaves there: a host stretch rewrites the buffers its operations write, a region leaves each of its
  output arrays at its pipeline's write-backs and every other buffer as it found it. So the result buffer holds the
  last boundary's contents at that buffer, and the eight argument arrays are as launched.
-/
import proofs.«122488_j2800318677025_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer then holds the contents of the last segment boundary at that buffer, and the arguments are unchanged. -/
theorem run : θ_run defs (onTc (τ := τ) (main (F := F))) ⟨m, fun _ => 0, ρ⟩ (fun r => ∀ c : Dev nD,
      r.2.mem ((c.tc : Thread nD τ).loc main_v88) = W14 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v88 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.KRun

end
-- ==== Proof.SpecK.lean ====
/-
  The shared host-side pieces of the graph network, as named functions of whole arrays in the host's own spelling:
  the edge list's two rows, the degree normalisation 1/sqrt(deg + 1), an index vector wrapped into range and made a
  column, the per-edge coefficient norm[src] * norm[dst], the message passing segment_sum(xw[src] * coef, dst), and
  the slices of the stacked weights and biases. Naming them lets a long line of host operations be read in segments.
-/
import proofs.«122488_j2800318677025_1_alg».proof.Proof.Gen.KernelIdeal

noncomputable section

namespace Cert.KernelIdeal.Spec

open Cert.KernelIdeal Cert.KernelIdeal.Gen Idealize.ShloMosaic

variable {F : FTy → Type} [FloatOps F]

/-- An array of shape s and element type t. -/
abbrev Arr (F : FTy → Type) (s : Shape) (t : EltTy) : Type := (⟨s, t⟩ : BufTy).Contents (Elt F)

/-- Row 0 of the edge list: the source node of every edge. -/
def srcOf (e : Arr F S2x800000 .i32) : Arr F S800000 .i32 :=
  shapeCast S800000 (extractStridedSlice S1x800000 ![0, 0] e slices_S2x800000_S1x800000_0_0) shapeCasts_S1x800000_S800000

/-- Row 1 of the edge list: the target node of every edge. -/
def dstOf (e : Arr F S2x800000 .i32) : Arr F S800000 .i32 :=
  shapeCast S800000 (extractStridedSlice S1x800000 ![1, 0] e slices_S2x800000_S1x800000_1_0) shapeCasts_S1x800000_S800000

/-- 1/sqrt(deg + 1), deg the number of edges arriving at each node (ones summed by target). -/
def normOf (dst : Arr F S800000 .i32) : Arr F S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- An index vector with its negative entries wrapped by the number of nodes, as a column of start indices. -/
def wrapIdx (i : Arr F S800000 .i32) : Arr F S800000x1 .i32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The per-edge coefficient norm[src] * norm[dst]. -/
def coefOf (src dst : Arr F S800000 .i32) : Arr F S800000 .f32 :=
  mulf (Host.gather gather_S50000_S800000x1_S800000_n_0_n_n_0_1_1 (normOf dst) (wrapIdx src))
    (Host.gather gather_S50000_S800000x1_S800000_n_0_n_n_0_1_1 (normOf dst) (wrapIdx dst))

/-- Message passing: the rows xw[src], scaled by the coefficient spread over the columns (cB), summed by target. -/
def aggOf (src dst : Arr F S800000 .i32) (cB : Arr F S800000x128 .f32) (xw : Arr F S50000x128 .f32) : Arr F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 xw (wrapIdx src)) cB)

/-- Layer 0's weight matrix. -/
def w0 (a : Arr F S3x128x128 .f32) : Arr F S128x128 .f32 :=
  shapeCast S128x128 (extractStridedSlice S1x128x128 ![0, 0, 0] a slices_S3x128x128_S1x128x128_0_0_0) shapeCasts_S1x128x128_S128x128
/-- Layer 0's bias vector. -/
def b0 (a : Arr F S3x128 .f32) : Arr F S128 .f32 :=
  shapeCast S128 (extractStridedSlice S1x128 ![0, 0] a slices_S3x128_S1x128_0_0) shapeCasts_S1x128_S128
/-- Layer 1's weight matrix. -/
def w1 (a : Arr F S3x128x128 .f32) : Arr F S128x128 .f32 :=
  shapeCast S128x128 (extractStridedSlice S1x128x128 ![1, 0, 0] a slices_S3x128x128_S1x128x128_1_0_0) shapeCasts_S1x128x128_S128x128
/-- Layer 1's bias vector. -/
def b1 (a : Arr F S3x128 .f32) : Arr F S128 .f32 :=
  shapeCast S128 (extractStridedSlice S1x128 ![1, 0] a slices_S3x128_S1x128_1_0) shapeCasts_S1x128_S128
/-- Layer 2's weight matrix. -/
def w2 (a : Arr F S3x128x128 .f32) : Arr F S128x128 .f32 :=
  shapeCast S128x128 (extractStridedSlice S1x128x128 ![2, 0, 0] a slices_S3x128x128_S1x128x128_2_0_0) shapeCasts_S1x128x128_S128x128
/-- Layer 2's bias vector. -/
def b2 (a : Arr F S3x128 .f32) : Arr F S128 .f32 :=
  shapeCast S128 (extractStridedSlice S1x128 ![2, 0] a slices_S3x128_S1x128_2_0) shapeCasts_S1x128_S128
/-- A column of per-edge values repeated over the 128 columns. -/
def spread (col : Arr F S800000x1 .f32) : Arr F S800000x128 .f32 :=
  broadcastInDim S800000x128 ![0, 1] bcast_S800000x1_S800000x128_0_1 col

/-- The coefficient as the kernel's host side spreads it: reshaped to a column, then repeated over the 128 columns. -/
def cB (src dst : Arr F S800000 .i32) : Arr F S800000x128 .f32 :=
  spread (shapeCast S800000x1 (coefOf src dst) shapeCasts_S800000_S800000x1)

/-- norm² reshaped to a column, as the finalize kernel's third operand. -/
def nsqCol (dst : Arr F S800000 .i32) : Arr F S50000x1 .f32 :=
  shapeCast S50000x1 (mulf (normOf dst) (normOf dst)) shapeCasts_S50000_S50000x1

/-- A bias vector reshaped to one row, as the finalize kernel's fourth operand. -/
def biasRow (b : Arr F S128 .f32) : Arr F S1x128 .f32 :=
  shapeCast S1x128 b shapeCasts_S128_S1x128

end Cert.KernelIdeal.Spec

end
-- ==== Proof.KStretch.lean ====
/-
  What the kernel program's host stretches compute, stretch by stretch, from whatever contents they are entered with:
  the first one prepares the edge endpoints, the normalisation and the per-edge coefficient and slices layer 0's
  parameters; before each finalize kernel a stretch does the message passing; before the later transform kernels a
  stretch slices that layer's parameters; the last one reshapes the two dense biases to rows.
-/
import proofs.«122488_j2800318677025_1_alg».proof.Proof.SpecK
import proofs.«122488_j2800318677025_1_alg».proof.Proof.Gen.KernelIdeal.Launch
import Idealize.ShloMosaic.Lib.StableHlo.Run

set_option maxRecDepth 16384

noncomputable section

namespace Cert.KernelIdeal.KStretch

open Cert.KernelIdeal Cert.KernelIdeal.Gen Cert.KernelIdeal.Spec
open Idealize.ShloMosaic Idealize.ShloMosaic.TcCoe Idealize.SL.Sem Idealize.ShloMosaic.StableHlo

variable {F : FTy → Type} [FloatOps F]

/-- The first stretch leaves the edges' sources in their buffer. -/
theorem s0_src (W : Valuation τ sig (Elt F)) :
    StableHlo.after hostOps0 W (Proc.devRef .tc main_v1) = srcOf (W (Proc.devRef .tc main_arg1)) := by
  after_results_simp
  rfl

/-- The first stretch leaves the edges' targets in their buffer. -/
theorem s0_dst (W : Valuation τ sig (Elt F)) :
    StableHlo.after hostOps0 W (Proc.devRef .tc main_v3) = dstOf (W (Proc.devRef .tc main_arg1)) := by
  after_results_simp
  rfl

/-- The first stretch leaves norm², as a column, in its buffer. -/
theorem s0_nsq (W : Valuation τ sig (Elt F)) :
    StableHlo.after hostOps0 W (Proc.devRef .tc main_v12) = nsqCol (dstOf (W (Proc.devRef .tc main_arg1))) := by
  after_results_simp
  rfl

/-- The first stretch leaves the per-edge coefficient, as a column, in its buffer. -/
theorem s0_coef (W : Valuation τ sig (Elt F)) :
    StableHlo.after hostOps0 W (Proc.devRef .tc main_v28) = shapeCast S800000x1 (coefOf (srcOf (W (Proc.devRef .tc main_arg1))) (dstOf (W (Proc.devRef .tc main_arg1)))) shapeCasts_S800000_S800000x1 := by
  after_results_simp
  rfl

/-- The first stretch leaves layer 0's weight matrix in its buffer. -/
theorem s0_w (W : Valuation τ sig (Elt F)) :
    StableHlo.after hostOps0 W (Proc.devRef .tc main_v30) = w0 (W (Proc.devRef .tc main_arg2)) := by
  after_results_simp
  rfl

/-- The first stretch leaves layer 0's bias, as a row, in its buffer. -/
theorem s0_b (W : Valuation τ sig (Elt F)) :
    StableHlo.after hostOps0 W (Proc.devRef .tc main_v33) = biasRow (b0 (W (Proc.devRef .tc main_arg3))) := by
  after_results_simp
  rfl

/-- Stretch 1 is the message passing over the transformed features it finds. -/
theorem s1_agg (W : Valuation τ sig (Elt F)) :
    StableHlo.after hostOps1 W (Proc.devRef .tc main_v46) = aggOf (W (Proc.devRef .tc main_v1)) (W (Proc.devRef .tc main_v3)) (spread (W (Proc.devRef .tc main_v28))) (W (Proc.devRef .tc main_v34)) := by
  after_results_simp
  rfl

/-- Stretch 3 is the message passing over the transformed features it finds. -/
theorem s3_agg (W : Valuation τ sig (Elt F)) :
    StableHlo.after hostOps3 W (Proc.devRef .tc main_v65) = aggOf (W (Proc.devRef .tc main_v1)) (W (Proc.devRef .tc main_v3)) (spread (W (Proc.devRef .tc main_v28))) (W (Proc.devRef .tc main_v53)) := by
  after_results_simp
  rfl

/-- Stretch 5 is the message passing over the transformed features it finds. -/
theorem s5_agg (W : Valuation τ sig (Elt F)) :
    StableHlo.after hostOps5 W (Proc.devRef .tc main_v84) = aggOf (W (Proc.devRef .tc main_v1)) (W (Proc.devRef .tc main_v3)) (spread (W (Proc.devRef .tc main_v28))) (W (Proc.devRef .tc main_v72)) := by
  after_results_simp
  rfl

/-- Stretch 2 leaves layer 1's weight matrix in its buffer. -/
theorem s2_w (W : Valuation τ sig (Elt F)) :
    StableHlo.after hostOps2 W (Proc.devRef .tc main_v49) = w1 (W (Proc.devRef .tc main_arg2)) := by
  after_results_simp
  rfl

/-- Stretch 2 leaves layer 1's bias, as a row, in its buffer. -/
theorem s2_b (W : Valuation τ sig (Elt F)) :
    StableHlo.after hostOps2 W (Proc.devRef .tc main_v52) = biasRow (b1 (W (Proc.devRef .tc main_arg3))) := by
  after_results_simp
  rfl

/-- Stretch 4 leaves layer 2's weight matrix in its buffer. -/
theorem s4_w (W : Valuation τ sig (Elt F)) :
    StableHlo.after hostOps4 W (Proc.devRef .tc main_v68) = w2 (W (Proc.devRef .tc main_arg2)) := by
  after_results_simp
  rfl

/-- Stretch 4 leaves layer 2's bias, as a row, in its buffer. -/
theorem s4_b (W : Valuation τ sig (Elt F)) :
    StableHlo.after hostOps4 W (Proc.devRef .tc main_v71) = biasRow (b2 (W (Proc.devRef .tc main_arg3))) := by
  after_results_simp
  rfl

/-- The last stretch reshapes the first dense bias to a row. -/
theorem s6_b1 (W : Valuation τ sig (Elt F)) :
    StableHlo.after hostOps6 W (Proc.devRef .tc main_v86) = shapeCast S1x512 (W (Proc.devRef .tc main_arg5)) shapeCasts_S512_S1x512 := by
  after_results_simp
  rfl

/-- The last stretch reshapes the second dense bias to a row. -/
theorem s6_b2 (W : Valuation τ sig (Elt F)) :
    StableHlo.after hostOps6 W (Proc.devRef .tc main_v87) = shapeCast S1x64 (W (Proc.devRef .tc main_arg7)) shapeCasts_S64_S1x64 := by
  after_results_simp
  rfl

end Cert.KernelIdeal.KStretch

end
-- ==== Proof.KKeep.lean ====
/-
  A host stretch leaves alone every buffer none of its operations writes. Listed here, stretch by stretch, for the
  buffers a later segment of the kernel program still reads: the arguments, the edge endpoints, norm² and the
  coefficient (prepared once and read by every layer), and each region's output until its last reader.
-/
import proofs.«122488_j2800318677025_1_alg».proof.Proof.Gen.KernelIdeal.Launch
import Idealize.ShloMosaic.Lib.StableHlo.Run

set_option maxRecDepth 16384

noncomputable section

namespace Cert.KernelIdeal.KKeep

open Cert.KernelIdeal Cert.KernelIdeal.Gen
open Idealize.ShloMosaic Idealize.ShloMosaic.TcCoe Idealize.SL.Sem Idealize.ShloMosaic.StableHlo

variable {F : FTy → Type} [FloatOps F]

/-- Closes `after ops W b = W b` for a literal line `ops` (named, and unfolded first) none of whose operations
    writes `b`: every operation's one written buffer is a different reference. -/
macro "not_written " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem keep0_arg0 (W : Valuation τ sig (Elt F)) :
    StableHlo.after hostOps0 W (Proc.devRef .tc main_arg0) = W (Proc.devRef .tc main_arg0) := by not_written hostOps0
theorem keep0_arg2 (W : Valuation τ sig (Elt F)) :
    StableHlo.after hostOps0 W (Proc.devRef .tc main_arg2) = W (Proc.devRef .tc main_arg2) := by not_written hostOps0
theorem keep0_arg3 (W : Valuation τ sig (Elt F)) :
    StableHlo.after hostOps0 W (Proc.devRef .tc main_arg3) = W (Proc.devRef .tc main_arg3) := by not_written hostOps0
theorem keep0_arg4 (W : Valuation τ sig (Elt F)) :
    StableHlo.after hostOps0 W (Proc.devRef .tc main_arg4) = W (Proc.devRef .tc main_arg4) := by not_written hostOps0
theorem keep0_arg5 (W : Valuation τ sig (Elt F)) :
    StableHlo.after hostOps0 W (Proc.devRef .tc main_arg5) = W (Proc.devRef .tc main_arg5) := by not_written hostOps0
theorem keep0_arg6 (W : Valuation τ sig (Elt F)) :
    StableHlo.after hostOps0 W (Proc.devRef .tc main_arg6) = W (Proc.devRef .tc main_arg6) := by not_written hostOps0
theorem keep0_arg7 (W : Valuation τ sig (Elt F)) :
    StableHlo.after hostOps0 W (Proc.devRef .tc main_arg7) = W (Proc.devRef .tc main_arg7) := by not_written hostOps0
theorem keep1_v34 (W : Valuation τ sig (Elt F)) :
    StableHlo.after hostOps1 W (Proc.devRef .tc main_v34) = W (Proc.devRef .tc main_v34) := by not_written hostOps1
theorem keep1_v12 (W : Valuation τ sig (Elt F)) :
    StableHlo.after hostOps1 W (Proc.devRef .tc main_v12) = W (Proc.devRef .tc main_v12) := by not_written hostOps1
theorem keep1_v33 (W : Valuation τ sig (Elt F)) :
    StableHlo.after hostOps1 W (Proc.devRef .tc main_v33) = W (Proc.devRef .tc main_v33) := by not_written hostOps1
theorem keep1_v1 (W : Valuation τ sig (Elt F)) :
    StableHlo.after hostOps1 W (Proc.devRef .tc main_v1) = W (Proc.devRef .tc main_v1) := by not_written hostOps1
theorem keep1_v3 (W : Valuation τ sig (Elt F)) :
    StableHlo.after hostOps1 W (Proc.devRef .tc main_v3) = W (Proc.devRef .tc main_v3) := by not_written hostOps1
theorem keep1_v28 (W : Valuation τ sig (Elt F)) :
    StableHlo.after hostOps1 W (Proc.devRef .tc main_v28) = W (Proc.devRef .tc main_v28) := by not_written hostOps1
theorem keep1_arg2 (W : Valuation τ sig (Elt F)) :
    StableHlo.after hostOps1 W (Proc.devRef .tc main_arg2) = W (Proc.devRef .tc main_arg2) := by not_written hostOps1
theorem keep1_arg3 (W : Valuation τ sig (Elt F)) :
    StableHlo.after hostOps1 W (Proc.devRef .tc main_arg3) = W (Proc.devRef .tc main_arg3) := by not_written hostOps1
theorem keep1_arg4 (W : Valuation τ sig (Elt F)) :
    StableHlo.after hostOps1 W (Proc.devRef .tc main_arg4) = W (Proc.devRef .tc main_arg4) := by not_written hostOps1
theorem keep1_arg5 (W : Valuation τ sig (Elt F)) :
    StableHlo.after hostOps1 W (Proc.devRef .tc main_arg5) = W (Proc.devRef .tc main_arg5) := by not_written hostOps1
theorem keep1_arg6 (W : Valuation τ sig (Elt F)) :
    StableHlo.after hostOps1 W (Proc.devRef .tc main_arg6) = W (Proc.devRef .tc main_arg6) := by not_written hostOps1
theorem keep1_arg7 (W : Valuation τ sig (Elt F)) :
    StableHlo.after hostOps1 W (Proc.devRef .tc main_arg7) = W (Proc.devRef .tc main_arg7) := by not_written hostOps1
theorem keep2_v47 (W : Valuation τ sig (Elt F)) :
    StableHlo.after hostOps2 W (Proc.devRef .tc main_v47) = W (Proc.devRef .tc main_v47) := by not_written hostOps2
theorem keep2_v1 (W : Valuation τ sig (Elt F)) :
    StableHlo.after hostOps2 W (Proc.devRef .tc main_v1) = W (Proc.devRef .tc main_v1) := by not_written hostOps2
theorem keep2_v3 (W : Valuation τ sig (Elt F)) :
    StableHlo.after hostOps2 W (Proc.devRef .tc main_v3) = W (Proc.devRef .tc main_v3) := by not_written hostOps2
theorem keep2_v12 (W : Valuation τ sig (Elt F)) :
    StableHlo.after hostOps2 W (Proc.devRef .tc main_v12) = W (Proc.devRef .tc main_v12) := by not_written hostOps2
theorem keep2_v28 (W : Valuation τ sig (Elt F)) :
    StableHlo.after hostOps2 W (Proc.devRef .tc main_v28) = W (Proc.devRef .tc main_v28) := by not_written hostOps2
theorem keep2_arg2 (W : Valuation τ sig (Elt F)) :
    StableHlo.after hostOps2 W (Proc.devRef .tc main_arg2) = W (Proc.devRef .tc main_arg2) := by not_written hostOps2
theorem keep2_arg3 (W : Valuation τ sig (Elt F)) :
    StableHlo.after hostOps2 W (Proc.devRef .tc main_arg3) = W (Proc.devRef .tc main_arg3) := by not_written hostOps2
theorem keep2_arg4 (W : Valuation τ sig (Elt F)) :
    StableHlo.after hostOps2 W (Proc.devRef .tc main_arg4) = W (Proc.devRef .tc main_arg4) := by not_written hostOps2
theorem keep2_arg5 (W : Valuation τ sig (Elt F)) :
    StableHlo.after hostOps2 W (Proc.devRef .tc main_arg5) = W (Proc.devRef .tc main_arg5) := by not_written hostOps2
theorem keep2_arg6 (W : Valuation τ sig (Elt F)) :
    StableHlo.after hostOps2 W (Proc.devRef .tc main_arg6) = W (Proc.devRef .tc main_arg6) := by not_written hostOps2
theorem keep2_arg7 (W : Valuation τ sig (Elt F)) :
    StableHlo.after hostOps2 W (Proc.devRef .tc main_arg7) = W (Proc.devRef .tc main_arg7) := by not_written hostOps2
theorem keep3_v53 (W : Valuation τ sig (Elt F)) :
    StableHlo.after hostOps3 W (Proc.devRef .tc main_v53) = W (Proc.devRef .tc main_v53) := by not_written hostOps3
theorem keep3_v12 (W : Valuation τ sig (Elt F)) :
    StableHlo.after hostOps3 W (Proc.devRef .tc main_v12) = W (Proc.devRef .tc main_v12) := by not_written hostOps3
theorem keep3_v52 (W : Valuation τ sig (Elt F)) :
    StableHlo.after hostOps3 W (Proc.devRef .tc main_v52) = W (Proc.devRef .tc main_v52) := by not_written hostOps3
theorem keep3_v1 (W : Valuation τ sig (Elt F)) :
    StableHlo.after hostOps3 W (Proc.devRef .tc main_v1) = W (Proc.devRef .tc main_v1) := by not_written hostOps3
theorem keep3_v3 (W : Valuation τ sig (Elt F)) :
    StableHlo.after hostOps3 W (Proc.devRef .tc main_v3) = W (Proc.devRef .tc main_v3) := by not_written hostOps3
theorem keep3_v28 (W : Valuation τ sig (Elt F)) :
    StableHlo.after hostOps3 W (Proc.devRef .tc main_v28) = W (Proc.devRef .tc main_v28) := by not_written hostOps3
theorem keep3_arg2 (W : Valuation τ sig (Elt F)) :
    StableHlo.after hostOps3 W (Proc.devRef .tc main_arg2) = W (Proc.devRef .tc main_arg2) := by not_written hostOps3
theorem keep3_arg3 (W : Valuation τ sig (Elt F)) :
    StableHlo.after hostOps3 W (Proc.devRef .tc main_arg3) = W (Proc.devRef .tc main_arg3) := by not_written hostOps3
theorem keep3_arg4 (W : Valuation τ sig (Elt F)) :
    StableHlo.after hostOps3 W (Proc.devRef .tc main_arg4) = W (Proc.devRef .tc main_arg4) := by not_written hostOps3
theorem keep3_arg5 (W : Valuation τ sig (Elt F)) :
    StableHlo.after hostOps3 W (Proc.devRef .tc main_arg5) = W (Proc.devRef .tc main_arg5) := by not_written hostOps3
theorem keep3_arg6 (W : Valuation τ sig (Elt F)) :
    StableHlo.after hostOps3 W (Proc.devRef .tc main_arg6) = W (Proc.devRef .tc main_arg6) := by not_written hostOps3
theorem keep3_arg7 (W : Valuation τ sig (Elt F)) :
    StableHlo.after hostOps3 W (Proc.devRef .tc main_arg7) = W (Proc.devRef .tc main_arg7) := by not_written hostOps3
theorem keep4_v66 (W : Valuation τ sig (Elt F)) :
    StableHlo.after hostOps4 W (Proc.devRef .tc main_v66) = W (Proc.devRef .tc main_v66) := by not_written hostOps4
theorem keep4_v1 (W : Valuation τ sig (Elt F)) :
    StableHlo.after hostOps4 W (Proc.devRef .tc main_v1) = W (Proc.devRef .tc main_v1) := by not_written hostOps4
theorem keep4_v3 (W : Valuation τ sig (Elt F)) :
    StableHlo.after hostOps4 W (Proc.devRef .tc main_v3) = W (Proc.devRef .tc main_v3) := by not_written hostOps4
theorem keep4_v12 (W : Valuation τ sig (Elt F)) :
    StableHlo.after hostOps4 W (Proc.devRef .tc main_v12) = W (Proc.devRef .tc main_v12) := by not_written hostOps4
theorem keep4_v28 (W : Valuation τ sig (Elt F)) :
    StableHlo.after hostOps4 W (Proc.devRef .tc main_v28) = W (Proc.devRef .tc main_v28) := by not_written hostOps4
theorem keep4_arg4 (W : Valuation τ sig (Elt F)) :
    StableHlo.after hostOps4 W (Proc.devRef .tc main_arg4) = W (Proc.devRef .tc main_arg4) := by not_written hostOps4
theorem keep4_arg5 (W : Valuation τ sig (Elt F)) :
    StableHlo.after hostOps4 W (Proc.devRef .tc main_arg5) = W (Proc.devRef .tc main_arg5) := by not_written hostOps4
theorem keep4_arg6 (W : Valuation τ sig (Elt F)) :
    StableHlo.after hostOps4 W (Proc.devRef .tc main_arg6) = W (Proc.devRef .tc main_arg6) := by not_written hostOps4
theorem keep4_arg7 (W : Valuation τ sig (Elt F)) :
    StableHlo.after hostOps4 W (Proc.devRef .tc main_arg7) = W (Proc.devRef .tc main_arg7) := by not_written hostOps4
theorem keep5_v72 (W : Valuation τ sig (Elt F)) :
    StableHlo.after hostOps5 W (Proc.devRef .tc main_v72) = W (Proc.devRef .tc main_v72) := by not_written hostOps5
theorem keep5_v12 (W : Valuation τ sig (Elt F)) :
    StableHlo.after hostOps5 W (Proc.devRef .tc main_v12) = W (Proc.devRef .tc main_v12) := by not_written hostOps5
theorem keep5_v71 (W : Valuation τ sig (Elt F)) :
    StableHlo.after hostOps5 W (Proc.devRef .tc main_v71) = W (Proc.devRef .tc main_v71) := by not_written hostOps5
theorem keep5_arg4 (W : Valuation τ sig (Elt F)) :
    StableHlo.after hostOps5 W (Proc.devRef .tc main_arg4) = W (Proc.devRef .tc main_arg4) := by not_written hostOps5
theorem keep5_arg5 (W : Valuation τ sig (Elt F)) :
    StableHlo.after hostOps5 W (Proc.devRef .tc main_arg5) = W (Proc.devRef .tc main_arg5) := by not_written hostOps5
theorem keep5_arg6 (W : Valuation τ sig (Elt F)) :
    StableHlo.after hostOps5 W (Proc.devRef .tc main_arg6) = W (Proc.devRef .tc main_arg6) := by not_written hostOps5
theorem keep5_arg7 (W : Valuation τ sig (Elt F)) :
    StableHlo.after hostOps5 W (Proc.devRef .tc main_arg7) = W (Proc.devRef .tc main_arg7) := by not_written hostOps5
theorem keep6_v85 (W : Valuation τ sig (Elt F)) :
    StableHlo.after hostOps6 W (Proc.devRef .tc main_v85) = W (Proc.devRef .tc main_v85) := by not_written hostOps6
theorem keep6_arg4 (W : Valuation τ sig (Elt F)) :
    StableHlo.after hostOps6 W (Proc.devRef .tc main_arg4) = W (Proc.devRef .tc main_arg4) := by not_written hostOps6
theorem keep6_arg6 (W : Valuation τ sig (Elt F)) :
    StableHlo.after hostOps6 W (Proc.devRef .tc main_arg6) = W (Proc.devRef .tc main_arg6) := by not_written hostOps6

end Cert.KernelIdeal.KKeep

end
-- ==== Proof.SpecR.lean ====
/-
  The shared host-side pieces of the graph network, as named functions of whole arrays in the host's own spelling:
  the edge list's two rows, the degree normalisation 1/sqrt(deg + 1), an index vector wrapped into range and made a
  column, the per-edge coefficient norm[src] * norm[dst], the message passing segment_sum(xw[src] * coef, dst), and
  the slices of the stacked weights and biases. Naming them lets a long line of host operations be read in segments.
-/
import proofs.«122488_j2800318677025_1_alg».proof.Proof.Gen.ReferenceIdeal

noncomputable section

namespace Cert.ReferenceIdeal.Spec

open Cert.ReferenceIdeal Cert.ReferenceIdeal.Gen Idealize.ShloMosaic

variable {F : FTy → Type} [FloatOps F]

/-- An array of shape s and element type t. -/
abbrev Arr (F : FTy → Type) (s : Shape) (t : EltTy) : Type := (⟨s, t⟩ : BufTy).Contents (Elt F)

/-- Row 0 of the edge list: the source node of every edge. -/
def srcOf (e : Arr F S2x800000 .i32) : Arr F S800000 .i32 :=
  shapeCast S800000 (extractStridedSlice S1x800000 ![0, 0] e slices_S2x800000_S1x800000_0_0) shapeCasts_S1x800000_S800000

/-- Row 1 of the edge list: the target node of every edge. -/
def dstOf (e : Arr F S2x800000 .i32) : Arr F S800000 .i32 :=
  shapeCast S800000 (extractStridedSlice S1x800000 ![1, 0] e slices_S2x800000_S1x800000_1_0) shapeCasts_S1x800000_S800000

/-- 1/sqrt(deg + 1), deg the number of edges arriving at each node (ones summed by target). -/
def normOf (dst : Arr F S800000 .i32) : Arr F S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- An index vector with its negative entries wrapped by the number of nodes, as a column of start indices. -/
def wrapIdx (i : Arr F S800000 .i32) : Arr F S800000x1 .i32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The per-edge coefficient norm[src] * norm[dst]. -/
def coefOf (src dst : Arr F S800000 .i32) : Arr F S800000 .f32 :=
  mulf (Host.gather gather_S50000_S800000x1_S800000_n_0_n_n_0_1_1 (normOf dst) (wrapIdx src))
    (Host.gather gather_S50000_S800000x1_S800000_n_0_n_n_0_1_1 (normOf dst) (wrapIdx dst))

/-- Message passing: the rows xw[src], scaled by the coefficient spread over the columns (cB), summed by target. -/
def aggOf (src dst : Arr F S800000 .i32) (cB : Arr F S800000x128 .f32) (xw : Arr F S50000x128 .f32) : Arr F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 xw (wrapIdx src)) cB)

/-- Layer 0's weight matrix. -/
def w0 (a : Arr F S3x128x128 .f32) : Arr F S128x128 .f32 :=
  shapeCast S128x128 (extractStridedSlice S1x128x128 ![0, 0, 0] a slices_S3x128x128_S1x128x128_0_0_0) shapeCasts_S1x128x128_S128x128
/-- Layer 0's bias vector. -/
def b0 (a : Arr F S3x128 .f32) : Arr F S128 .f32 :=
  shapeCast S128 (extractStridedSlice S1x128 ![0, 0] a slices_S3x128_S1x128_0_0) shapeCasts_S1x128_S128
/-- Layer 1's weight matrix. -/
def w1 (a : Arr F S3x128x128 .f32) : Arr F S128x128 .f32 :=
  shapeCast S128x128 (extractStridedSlice S1x128x128 ![1, 0, 0] a slices_S3x128x128_S1x128x128_1_0_0) shapeCasts_S1x128x128_S128x128
/-- Layer 1's bias vector. -/
def b1 (a : Arr F S3x128 .f32) : Arr F S128 .f32 :=
  shapeCast S128 (extractStridedSlice S1x128 ![1, 0] a slices_S3x128_S1x128_1_0) shapeCasts_S1x128_S128
/-- Layer 2's weight matrix. -/
def w2 (a : Arr F S3x128x128 .f32) : Arr F S128x128 .f32 :=
  shapeCast S128x128 (extractStridedSlice S1x128x128 ![2, 0, 0] a slices_S3x128x128_S1x128x128_2_0_0) shapeCasts_S1x128x128_S128x128
/-- Layer 2's bias vector. -/
def b2 (a : Arr F S3x128 .f32) : Arr F S128 .f32 :=
  shapeCast S128 (extractStridedSlice S1x128 ![2, 0] a slices_S3x128_S1x128_2_0) shapeCasts_S1x128_S128
/-- The coefficient as the reference spreads it: made a column, then repeated over the 128 columns. -/
def cB (src dst : Arr F S800000 .i32) : Arr F S800000x128 .f32 :=
  broadcastInDim S800000x128 ![0, 1] bcast_S800000x1_S800000x128_0_1
    (broadcastInDim S800000x1 ![0] bcast_S800000_S800000x1_0 (coefOf src dst))

/-- One graph-convolution layer as the reference writes it:
    relu((segment_sum((xW)[src] * coef, dst) + xW * norm²) + b). -/
def layer (e : Arr F S2x800000 .i32) (W : Arr F S128x128 .f32) (b : Arr F S128 .f32) (x : Arr F S50000x128 .f32) :
    Arr F S50000x128 .f32 :=
  maximumf
    (addf
      (addf
        (aggOf (srcOf e) (dstOf e) (cB (srcOf e) (dstOf e))
          (Host.dotGeneral dot_S50000x128_S128x128_S50000x128_1_0_0_1_n_n none x W))
        (mulf (Host.dotGeneral dot_S50000x128_S128x128_S50000x128_1_0_0_1_n_n none x W)
          (broadcastInDim S50000x128 ![0, 1] bcast_S50000x1_S50000x128_0_1
            (broadcastInDim S50000x1 ![0] bcast_S50000_S50000x1_0 (mulf (normOf (dstOf e)) (normOf (dstOf e)))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The two dense layers at the end: relu(x W₁ + b₁) W₂ + b₂. -/
def head (a4 : Arr F S128x512 .f32) (a5 : Arr F S512 .f32) (a6 : Arr F S512x64 .f32) (a7 : Arr F S64 .f32)
    (x : Arr F S50000x128 .f32) : Arr F S50000x64 .f32 :=
  addf
    (Host.dotGeneral dot_S50000x512_S512x64_S50000x64_1_0_0_1_n_n none
      (maximumf
        (addf (Host.dotGeneral dot_S50000x128_S128x512_S50000x512_1_0_0_1_n_n none x a4)
          (broadcastInDim S50000x512 ![0, 1] bcast_S1x512_S50000x512_0_1 (broadcastInDim S1x512 ![1] bcast_S512_S1x512_1 a5)))
        (broadcastInDim S50000x512 ![] bcast_S_S50000x512 (constant S_ .f32 0x00000000#32)))
      a6)
    (broadcastInDim S50000x64 ![0, 1] bcast_S1x64_S50000x64_0_1 (broadcastInDim S1x64 ![1] bcast_S64_S1x64_1 a7))

/-- The whole reference: three layers, then the head. -/
def refVal (x : Arr F S50000x128 .f32) (e : Arr F S2x800000 .i32) (a2 : Arr F S3x128x128 .f32) (a3 : Arr F S3x128 .f32)
    (a4 : Arr F S128x512 .f32) (a5 : Arr F S512 .f32) (a6 : Arr F S512x64 .f32) (a7 : Arr F S64 .f32) : Arr F S50000x64 .f32 :=
  head a4 a5 a6 a7 (layer e (w2 a2) (b2 a3) (layer e (w1 a2) (b1 a3) (layer e (w0 a2) (b0 a3) x)))

end Cert.ReferenceIdeal.Spec

end
-- ==== Proof.LibColumn.lean ====
/-
  GENERAL LEMMAS: a vector made a column, two ways.

  A length-`a` vector becomes an `a × 1` column either by a shape cast (a reshape) or by the host's
  `broadcast_in_dim` along axis 0. Read at `(i, u)` both give the vector's entry `i` (`shapeCast_a_a1_apply`,
  `broadcastInDim_a_a1_apply`), so the two columns are one array (`shapeCast_col_eq_broadcastInDim`), whatever the
  element type. Imports the library only.
-/
import Idealize.ShloMosaic.Lib.ValueIdx
import Idealize.ShloMosaic.Lib.ValueLayout
import Idealize.ShloMosaic.Lib.Pipeline.Value

noncomputable section

namespace Cert.Column

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The host's `broadcast_in_dim` of an `[a]` vector to an `[a, 1]` column along axis 0 reads, at `(i, u)`, the
    vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun ax => by
    match ax with
    | ⟨0, _⟩ =>
      show i.val = if a = 1 then 0 else i.val
      split
      · have := i.isLt; omega
      · rfl

/-- The reshaped column and the broadcast column are the same array. -/
theorem shapeCast_col_eq_broadcastInDim {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_a_a1_apply, broadcastInDim_a_a1_apply]

end Cert.Column

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«122488_j2800318677025_1_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibSelfLoop.lean ====
/-
  GENERAL LEMMAS: a graph convolution's self-loop combine, and a bias row added to every row, each written two ways.

  * `selfLoopMax A H D B z`: entry `(r, q)` is `max ((A (r, q) + H (r, q) · D (r, 0)) + B (0, q)) z` — an aggregated
    message matrix `A`, the node's own features `H` scaled by a per-row factor held as an `R × 1` column `D`, a
    `1 × K` bias row `B`, and the maximum with a constant `z`. `selfLoopMax_of_vector_ops` reads a kernel body's
    vector operations (each operand first cast to its own shape, the column and the row broadcast to the block) as it;
    `selfLoopMax_of_host_ops` reads the host's spelling (the column and a length-`K` bias vector spread by
    `broadcast_in_dim`, the constant splat) as it, at the vector reshaped to one row.
  * `rowBias A B`: entry `(r, q)` is `A (r, q) + B (0, q)`; `rowBias_of_vector_ops` and `rowBias_of_host_ops` read
    the two spellings of a bias added to every row.
  * `broadcastTo_a1_ab_apply`, `broadcastInDim_a1_ab_apply`, `broadcastInDim_b_1b_apply`,
    `broadcastInDim_1b_ab_apply`, `broadcastInDim_scalar_apply`: the layout forms these use, read at an index.

  Everything is over the extended reals with no finiteness hypothesis: the two spellings are the same expression entry
  by entry. Imports the library only.
-/
import Idealize.ShloMosaic.PureOps.Ideal.Laws
import Idealize.ShloMosaic.Lib.ValueIdx
import Idealize.ShloMosaic.Lib.ValueLayout
import Idealize.ShloMosaic.Lib.Pipeline.Value

noncomputable section

namespace Cert.SelfLoop

open Idealize.ShloMosaic Idealize.ShloMosaic.ValueIdx

/-- The shape of a matrix of `a` rows and `b` columns. -/
abbrev Mat (a b : Nat) : Shape := ⟨2, ![a, b]⟩
/-- The shape of a vector of `a` entries. -/
abbrev Vc (a : Nat) : Shape := ⟨1, ![a]⟩
/-- The shape of a scalar. -/
abbrev Sc : Shape := ⟨0, ![]⟩

variable {α : Type}

/-- An `[a, 1]` column broadcast to `[a, b]` reads, at `(p, q)`, the column's entry of row `p`. -/
theorem broadcastTo_a1_ab_apply {a b : ℕ} (v : (Mat a 1).Idx → α) (h : (Mat a 1).Broadcasts (Mat a b))
    (p : Fin a) (q : Fin b) : broadcastTo (Mat a b) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` along both axes reads, at `(p, q)`, the column's
    entry of row `p`. -/
theorem broadcastInDim_a1_ab_apply {a b : ℕ} (v : (Mat a 1).Idx → α) (h : (Mat a 1).BroadcastsInDim (Mat a b) ![0, 1])
    (p : Fin a) (q : Fin b) : broadcastInDim (Mat a b) ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- The host's `broadcast_in_dim` of a length-`b` vector to one row `[1, b]` reads, at `(0, q)`, the vector at `q`. -/
theorem broadcastInDim_b_1b_apply {b : ℕ} (v : (Vc b).Idx → α) (h : (Vc b).BroadcastsInDim (Mat 1 b) ![1])
    (q : Fin b) : broadcastInDim (Mat 1 b) ![1] h v (ix2 (0 : Fin 1) q) = v (ix1 q) :=
  broadcastInDim_apply ![1] h v (ix2 (0 : Fin 1) q) (ix1 q) fun ax => by
    match ax with
    | ⟨0, _⟩ =>
      show q.val = if b = 1 then 0 else q.val
      split
      · have := q.isLt; omega
      · rfl

/-- The host's `broadcast_in_dim` of one row `[1, b]` to `[a, b]` along both axes reads, at `(p, q)`, the row at `q`. -/
theorem broadcastInDim_1b_ab_apply {a b : ℕ} (v : (Mat 1 b).Idx → α) (h : (Mat 1 b).BroadcastsInDim (Mat a b) ![0, 1])
    (p : Fin a) (q : Fin b) : broadcastInDim (Mat a b) ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split
      · have := q.isLt; omega
      · rfl

/-- The host's splat of a scalar reads, at any index, the scalar. -/
theorem broadcastInDim_scalar_apply {t : Shape} (v : Sc.Idx → α) (h : Sc.BroadcastsInDim t ![]) (j : t.Idx) :
    broadcastInDim t ![] h v j = v ix0 :=
  broadcastInDim_apply ![] h v j ix0 fun ax => ax.elim0

/-! ## The self-loop combine -/

/-- `max ((A + H · D) + B) z`, entry by entry: `D` an `R × 1` column read at the entry's row, `B` a `1 × K` row
    read at the entry's column. -/
def selfLoopMax {R K : Nat} (A H : (Mat R K).Idx → EReal) (D : (Mat R 1).Idx → EReal) (B : (Mat 1 K).Idx → EReal) (z : EReal) :
    (Mat R K).Idx → EReal :=
  fun i => max ((A i + H i * D (ix2 (n0 := R) (n1 := 1) (i 0) 0)) + B (ix2 (n0 := 1) (n1 := K) 0 (i 1))) z

/-- A kernel body's vector operations `max ((a + h · broadcast d) + broadcast b) (splat z)` over `R × K` blocks `a`,
    `h`, an `R × 1` column `d` and a `1 × K` row `b` (each first cast to its own shape) are `selfLoopMax`. -/
theorem selfLoopMax_of_vector_ops {R K : Nat} (a h : FVec Ideal (Mat R K) .f32) (d : FVec Ideal (Mat R 1) .f32)
    (b : FVec Ideal (Mat 1 K) .f32) (z : Ideal .f32)
    (h1 : (Mat R K).ShapeCasts (Mat R K)) (h2 : (Mat R 1).ShapeCasts (Mat R 1)) (h3 : (Mat R 1).Broadcasts (Mat R K))
    (h4 : (Mat 1 K).ShapeCasts (Mat 1 K)) (h5 : (Mat 1 K).Broadcasts (Mat R K)) :
    maximumf (addf (addf (shapeCast (Mat R K) a h1)
        (mulf (shapeCast (Mat R K) h h1) (broadcastTo (Mat R K) (shapeCast (Mat R 1) d h2) h3)))
        (broadcastTo (Mat R K) (shapeCast (Mat 1 K) b h4) h5)) (broadcast (Mat R K) z)
      = selfLoopMax a h d b z := by
  rw [shapeCast_self, shapeCast_self, shapeCast_self, shapeCast_self]
  funext i
  obtain ⟨p, q, rfl⟩ : ∃ (p : Fin R) (q : Fin K), i = ix2 p q := ⟨i 0, i 1, eq_ix2 i⟩
  show max ((a (ix2 p q) + h (ix2 p q) * broadcastTo (Mat R K) d h3 (ix2 p q)) + broadcastTo (Mat R K) b h5 (ix2 p q)) z
    = max ((a (ix2 p q) + h (ix2 p q) * d (ix2 p (0 : Fin 1))) + b (ix2 (0 : Fin 1) q)) z
  rw [broadcastTo_a1_ab_apply d h3 p q, broadcastTo_1b_ab_apply b h5 p q]

/-- The host's spelling — the column spread over the columns and a length-`K` bias vector made a row and then `R` rows
    by `broadcast_in_dim`s, the sums, and the maximum with a splat constant — is `selfLoopMax` at the vector reshaped to
    one row. -/
theorem selfLoopMax_of_host_ops {R K : Nat} (A H : FVec Ideal (Mat R K) .f32) (D : FVec Ideal (Mat R 1) .f32)
    (b : FVec Ideal (Vc K) .f32) (zb : BitVec 32)
    (h1 : (Mat R 1).BroadcastsInDim (Mat R K) ![0, 1]) (h2 : (Vc K).BroadcastsInDim (Mat 1 K) ![1])
    (h3 : (Mat 1 K).BroadcastsInDim (Mat R K) ![0, 1]) (h4 : Sc.BroadcastsInDim (Mat R K) ![])
    (h5 : (Vc K).ShapeCasts (Mat 1 K)) :
    maximumf (addf (addf A (mulf H (broadcastInDim (Mat R K) ![0, 1] h1 D)))
        (broadcastInDim (Mat R K) ![0, 1] h3 (broadcastInDim (Mat 1 K) ![1] h2 b)))
        (broadcastInDim (Mat R K) ![] h4 (constant (F := Ideal) Sc .f32 zb))
      = selfLoopMax A H D (shapeCast (Mat 1 K) b h5) (Ideal.ofBits .f32 zb) := by
  funext i
  obtain ⟨p, q, rfl⟩ : ∃ (p : Fin R) (q : Fin K), i = ix2 p q := ⟨i 0, i 1, eq_ix2 i⟩
  show max ((A (ix2 p q) + H (ix2 p q) * broadcastInDim (Mat R K) ![0, 1] h1 D (ix2 p q))
        + broadcastInDim (Mat R K) ![0, 1] h3 (broadcastInDim (Mat 1 K) ![1] h2 b) (ix2 p q))
      (broadcastInDim (Mat R K) ![] h4 (constant (F := Ideal) Sc .f32 zb) (ix2 p q))
    = max ((A (ix2 p q) + H (ix2 p q) * D (ix2 p (0 : Fin 1))) + shapeCast (Mat 1 K) b h5 (ix2 (0 : Fin 1) q)) (Ideal.ofBits .f32 zb)
  rw [broadcastInDim_a1_ab_apply D h1 p q, broadcastInDim_1b_ab_apply _ h3 p q, broadcastInDim_b_1b_apply b h2 q,
    broadcastInDim_scalar_apply _ h4, shapeCast_a_1a_apply b h5 0 q]
  rfl

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- A kernel body's `x + broadcast b` over an `R × K` block and a `1 × K` row (cast twice to its own shape) is `rowBias`. -/
theorem rowBias_of_vector_ops {R K : Nat} (x : FVec Ideal (Mat R K) .f32) (b : FVec Ideal (Mat 1 K) .f32)
    (h1 h2 : (Mat 1 K).ShapeCasts (Mat 1 K)) (h3 : (Mat 1 K).Broadcasts (Mat R K)) :
    addf x (broadcastTo (Mat R K) (shapeCast (Mat 1 K) (shapeCast (Mat 1 K) b h1) h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (Vc K) .f32)
    (h2 : (Vc K).BroadcastsInDim (Mat 1 K) ![1]) (h3 : (Mat 1 K).BroadcastsInDim (Mat R K) ![0, 1])
    (h5 : (Vc K).ShapeCasts (Mat 1 K)) :
    addf A (broadcastInDim (Mat R K) ![0, 1] h3 (broadcastInDim (Mat 1 K) ![1] h2 b))
      = rowBias A (shapeCast (Mat 1 K) b h5) := by
  funext i
  obtain ⟨p, q, rfl⟩ : ∃ (p : Fin R) (q : Fin K), i = ix2 p q := ⟨i 0, i 1, eq_ix2 i⟩
  show A (ix2 p q) + broadcastInDim (Mat R K) ![0, 1] h3 (broadcastInDim (Mat 1 K) ![1] h2 b) (ix2 p q)
    = A (ix2 p q) + shapeCast (Mat 1 K) b h5 (ix2 (0 : Fin 1) q)
  rw [broadcastInDim_1b_ab_apply _ h3 p q, broadcastInDim_b_1b_apply b h2 q, shapeCast_a_1a_apply b h5 0 q]

end Cert.SelfLoop

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«122488_j2800318677025_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.Bridge.lean ====
/-
  The two spellings of the network's dense parts are one function.

  The kernel side computes a layer as: the product x·W (a matrix product by blocks of rows), the message passing over
  it, and then, entry by entry, max((agg + xW · norm²) + b, 0) with norm² held as a column and b as a row. The
  reference computes the same with one whole dot_general and broadcasts. Over the extended reals these are the same
  expression entry by entry: a dot_general that contracts the left operand's columns with the right operand's rows is
  the plain matrix product; a vector reshaped to a column is the vector broadcast to a column; and the broadcasts read,
  at an entry, the column at the entry's row and the row at the entry's column. No law beyond that is used, so no
  finiteness of the inputs is needed. The same for the two dense layers at the end.
-/
import proofs.«122488_j2800318677025_1_alg».proof.Proof.SpecK
import proofs.«122488_j2800318677025_1_alg».proof.Proof.SpecR
import proofs.«122488_j2800318677025_1_alg».proof.Proof.LibColumn
import proofs.«122488_j2800318677025_1_alg».proof.Proof.LibRowBlock
import proofs.«122488_j2800318677025_1_alg».proof.Proof.LibSelfLoop
import proofs.«122488_j2800318677025_1_alg».proof.Proof.LibDotLists

noncomputable section

namespace Cert.Bridge

open Idealize.ShloMosaic
open Cert.KernelIdeal (S50000x128 S2x800000 S3x128x128 S3x128 S128x512 S512 S512x64 S64 S128x128 S128 S800000 S50000x64 S1x512 S1x64)
open Cert.KernelIdeal.Spec (Arr)

/-- The constant the kernels take the maximum with: the float word zero. -/
abbrev z0 : Ideal .f32 := Scalar.ofBits .f32 0x00000000#32

/-- One layer in the kernel side's form: the plain product x·W, the message passing over it, and the self-loop
    combine with norm² as a column and the bias as a row. -/
def layerK (e : Arr Ideal S2x800000 .i32) (W : Arr Ideal S128x128 .f32) (b : Arr Ideal S128 .f32)
    (x : Arr Ideal S50000x128 .f32) : Arr Ideal S50000x128 .f32 :=
  Cert.SelfLoop.selfLoopMax (R := 50000) (K := 128)
    (Cert.KernelIdeal.Spec.aggOf (Cert.KernelIdeal.Spec.srcOf e) (Cert.KernelIdeal.Spec.dstOf e)
      (Cert.KernelIdeal.Spec.cB (Cert.KernelIdeal.Spec.srcOf e) (Cert.KernelIdeal.Spec.dstOf e))
      (Cert.Linear.matProd (R := 50000) (K := 128) (N := 128) x W))
    (Cert.Linear.matProd (R := 50000) (K := 128) (N := 128) x W)
    (Cert.KernelIdeal.Spec.nsqCol (Cert.KernelIdeal.Spec.dstOf e)) (Cert.KernelIdeal.Spec.biasRow b) z0

/-- The two dense layers in the kernel side's form: max(x·W₁ + b₁, 0)·W₂ + b₂ with the biases as rows. -/
def headK (a4 : Arr Ideal S128x512 .f32) (a5 : Arr Ideal S512 .f32) (a6 : Arr Ideal S512x64 .f32) (a7 : Arr Ideal S64 .f32)
    (x : Arr Ideal S50000x128 .f32) : Arr Ideal S50000x64 .f32 :=
  Cert.SelfLoop.rowBias (R := 50000) (K := 64)
    (Cert.Linear.matProd (R := 50000) (K := 512) (N := 64)
      (Cert.Linear.rowBiasMax (R := 50000) (K := 512) (Cert.Linear.matProd (R := 50000) (K := 128) (N := 512) x a4)
        (shapeCast S1x512 a5 Cert.KernelIdeal.Gen.shapeCasts_S512_S1x512) z0) a6)
    (shapeCast S1x64 a7 Cert.KernelIdeal.Gen.shapeCasts_S64_S1x64)

/-- The whole network in the kernel side's form. -/
def kerVal (x : Arr Ideal S50000x128 .f32) (e : Arr Ideal S2x800000 .i32) (a2 : Arr Ideal S3x128x128 .f32)
    (a3 : Arr Ideal S3x128 .f32) (a4 : Arr Ideal S128x512 .f32) (a5 : Arr Ideal S512 .f32) (a6 : Arr Ideal S512x64 .f32)
    (a7 : Arr Ideal S64 .f32) : Arr Ideal S50000x64 .f32 :=
  headK a4 a5 a6 a7
    (layerK e (Cert.KernelIdeal.Spec.w2 a2) (Cert.KernelIdeal.Spec.b2 a3)
      (layerK e (Cert.KernelIdeal.Spec.w1 a2) (Cert.KernelIdeal.Spec.b1 a3)
        (layerK e (Cert.KernelIdeal.Spec.w0 a2) (Cert.KernelIdeal.Spec.b0 a3) x)))

/-- The reference's dot_general of the features with a layer's weights is the plain matrix product. -/
theorem dot_layer (x : Arr Ideal S50000x128 .f32) (W : Arr Ideal S128x128 .f32) :
    Host.dotGeneral (F := Ideal) (φ₁ := .f32) (φ₂ := .f32) Cert.ReferenceIdeal.dot_S50000x128_S128x128_S50000x128_1_0_0_1_n_n none x W
      = Cert.Linear.matProd (R := 50000) (K := 128) (N := 128) x W :=
  Cert.Linear.dotGeneral_eq (φ₁ := .f32) (φ₂ := .f32) (R := 50000) (K := 128) (N := 128)
    (d := Cert.ReferenceIdeal.dot_S50000x128_S128x128_S50000x128_1_0_0_1_n_n)
    (Cert.Linear.contracts_of_lists _ rfl rfl rfl rfl rfl rfl) none .single x W

/-- The coefficient spread over the columns is the same array whether it was first reshaped or first broadcast to a
    column. -/
theorem cB_eq (s d : Arr Ideal S800000 .i32) : Cert.KernelIdeal.Spec.cB s d = Cert.ReferenceIdeal.Spec.cB s d := by
  unfold Cert.KernelIdeal.Spec.cB Cert.KernelIdeal.Spec.spread Cert.ReferenceIdeal.Spec.cB
  rw [Cert.Column.shapeCast_col_eq_broadcastInDim (a := 800000) (Cert.KernelIdeal.Spec.coefOf s d)
    Cert.KernelIdeal.Gen.shapeCasts_S800000_S800000x1 Cert.ReferenceIdeal.Gen.bcast_S800000_S800000x1_0]
  rfl

/-- A layer in the kernel side's form is the reference's layer. -/
theorem layerK_eq (e : Arr Ideal S2x800000 .i32) (W : Arr Ideal S128x128 .f32) (b : Arr Ideal S128 .f32)
    (x : Arr Ideal S50000x128 .f32) : layerK e W b x = Cert.ReferenceIdeal.Spec.layer e W b x := by
  have hn : Cert.KernelIdeal.Spec.nsqCol (Cert.KernelIdeal.Spec.dstOf e)
      = broadcastInDim Cert.ReferenceIdeal.S50000x1 ![0] Cert.ReferenceIdeal.Gen.bcast_S50000_S50000x1_0
          (mulf (Cert.ReferenceIdeal.Spec.normOf (Cert.ReferenceIdeal.Spec.dstOf e)) (Cert.ReferenceIdeal.Spec.normOf (Cert.ReferenceIdeal.Spec.dstOf e))) :=
    Cert.Column.shapeCast_col_eq_broadcastInDim (a := 50000) _ _ _
  have hr := Cert.SelfLoop.selfLoopMax_of_host_ops (R := 50000) (K := 128)
    (Cert.ReferenceIdeal.Spec.aggOf (Cert.ReferenceIdeal.Spec.srcOf e) (Cert.ReferenceIdeal.Spec.dstOf e)
      (Cert.ReferenceIdeal.Spec.cB (Cert.ReferenceIdeal.Spec.srcOf e) (Cert.ReferenceIdeal.Spec.dstOf e))
      (Cert.Linear.matProd (R := 50000) (K := 128) (N := 128) x W))
    (Cert.Linear.matProd (R := 50000) (K := 128) (N := 128) x W)
    (broadcastInDim Cert.ReferenceIdeal.S50000x1 ![0] Cert.ReferenceIdeal.Gen.bcast_S50000_S50000x1_0
      (mulf (Cert.ReferenceIdeal.Spec.normOf (Cert.ReferenceIdeal.Spec.dstOf e)) (Cert.ReferenceIdeal.Spec.normOf (Cert.ReferenceIdeal.Spec.dstOf e))))
    b 0x00000000#32
    Cert.ReferenceIdeal.Gen.bcast_S50000x1_S50000x128_0_1 Cert.ReferenceIdeal.Gen.bcast_S128_S1x128_1
    Cert.ReferenceIdeal.Gen.bcast_S1x128_S50000x128_0_1 Cert.ReferenceIdeal.Gen.bcast_S_S50000x128
    Cert.KernelIdeal.Gen.shapeCasts_S128_S1x128
  unfold layerK
  rw [cB_eq, hn]
  refine Eq.trans ?_ (hr.symm.trans ?_)
  · rfl
  · show _ = Cert.ReferenceIdeal.Spec.layer e W b x
    unfold Cert.ReferenceIdeal.Spec.layer
    rw [dot_layer]

/-- The two dense layers in the kernel side's form are the reference's. -/
theorem headK_eq (a4 : Arr Ideal S128x512 .f32) (a5 : Arr Ideal S512 .f32) (a6 : Arr Ideal S512x64 .f32) (a7 : Arr Ideal S64 .f32)
    (x : Arr Ideal S50000x128 .f32) : headK a4 a5 a6 a7 x = Cert.ReferenceIdeal.Spec.head a4 a5 a6 a7 x := by
  have h1 : Host.dotGeneral (F := Ideal) (φ₁ := .f32) (φ₂ := .f32) Cert.ReferenceIdeal.dot_S50000x128_S128x512_S50000x512_1_0_0_1_n_n none x a4
      = Cert.Linear.matProd (R := 50000) (K := 128) (N := 512) x a4 :=
    Cert.Linear.dotGeneral_eq (φ₁ := .f32) (φ₂ := .f32) (R := 50000) (K := 128) (N := 512)
      (d := Cert.ReferenceIdeal.dot_S50000x128_S128x512_S50000x512_1_0_0_1_n_n)
      (Cert.Linear.contracts_of_lists _ rfl rfl rfl rfl rfl rfl) none .single x a4
  have h2 : ∀ y : Arr Ideal Cert.ReferenceIdeal.S50000x512 .f32,
      Host.dotGeneral (F := Ideal) (φ₁ := .f32) (φ₂ := .f32) Cert.ReferenceIdeal.dot_S50000x512_S512x64_S50000x64_1_0_0_1_n_n none y a6
        = Cert.Linear.matProd (R := 50000) (K := 512) (N := 64) y a6 :=
    fun y => Cert.Linear.dotGeneral_eq (φ₁ := .f32) (φ₂ := .f32) (R := 50000) (K := 512) (N := 64)
      (d := Cert.ReferenceIdeal.dot_S50000x512_S512x64_S50000x64_1_0_0_1_n_n)
      (Cert.Linear.contracts_of_lists _ rfl rfl rfl rfl rfl rfl) none .single y a6
  unfold Cert.ReferenceIdeal.Spec.head headK
  rw [h1, h2,
    Cert.Linear.rowBiasMax_of_host_ops (R := 50000) (K := 512) _ a5 0x00000000#32
      Cert.ReferenceIdeal.Gen.bcast_S512_S1x512_1 Cert.ReferenceIdeal.Gen.bcast_S1x512_S50000x512_0_1
      Cert.ReferenceIdeal.Gen.bcast_S_S50000x512 Cert.KernelIdeal.Gen.shapeCasts_S512_S1x512,
    Cert.SelfLoop.rowBias_of_host_ops (R := 50000) (K := 64) _ a7
      Cert.ReferenceIdeal.Gen.bcast_S64_S1x64_1 Cert.ReferenceIdeal.Gen.bcast_S1x64_S50000x64_0_1
      Cert.KernelIdeal.Gen.shapeCasts_S64_S1x64]
  rfl

/-- The network in the kernel side's form is the reference's value. -/
theorem kerVal_eq (x : Arr Ideal S50000x128 .f32) (e : Arr Ideal S2x800000 .i32) (a2 : Arr Ideal S3x128x128 .f32)
    (a3 : Arr Ideal S3x128 .f32) (a4 : Arr Ideal S128x512 .f32) (a5 : Arr Ideal S512 .f32) (a6 : Arr Ideal S512x64 .f32)
    (a7 : Arr Ideal S64 .f32) : kerVal x e a2 a3 a4 a5 a6 a7 = Cert.ReferenceIdeal.Spec.refVal x e a2 a3 a4 a5 a6 a7 := by
  unfold kerVal Cert.ReferenceIdeal.Spec.refVal
  rw [headK_eq, layerK_eq, layerK_eq, layerK_eq]
  rfl

end Cert.Bridge

end
-- ==== Proof.RegionT.lean ====
/-
  The three feature-transform regions, each read as ONE whole-array function of the arrays it was entered with.

  Each region walks ten grid points. At point `t` it loads rows `5000 t … 5000 t + 4999` of a 50000 × 128 left
  operand and the whole 128 × 128 right operand, multiplies them on the matrix unit into a zero accumulator, and writes
  the 5000 × 128 result back as rows `5000 t … 5000 t + 4999` of the result array. On extended reals the narrowing of
  the operands before the matrix unit is the identity, so the stored block is the plain product of the loaded block of
  rows with the matrix. A row of a product depends on that row of the left operand only, so the block written at point
  `t` is block `t` of the product of the WHOLE left operand with the matrix; the ten blocks tile the 50000 rows
  (row `r` lies in block `r / 5000`), so after the region the result array is that whole product.
-/
import proofs.«122488_j2800318677025_1_alg».proof.Proof.Gen.KernelIdeal.Frame
import proofs.«122488_j2800318677025_1_alg».proof.Proof.LibMatProd
import proofs.«122488_j2800318677025_1_alg».proof.Proof.LibDotLists
import proofs.«122488_j2800318677025_1_alg».proof.Proof.LibRowBlock
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## Region 0: blocks of 5000 rows of the left operand times the whole 128 × 128 matrix -/

/-- The body's stored value is the plain product of the block of rows it loaded with the matrix it loaded: the
    narrowing to bf16 before the matrix unit is the identity on extended reals, the cast of the matrix to its own shape
    is the identity, and the accumulator is the zero splat. -/
theorem pay0 (x : Vec Ideal S5000x128 .f32) (w : Vec Ideal S128x128 .f32) :
    Gen.k0_pay1 (F := Ideal) x w = Cert.Linear.matProd x w := by
  unfold Gen.k0_pay1
  refine Eq.trans ?_ (Cert.Linear.matmul_zero_eq (φ₁ := .bf16) (φ₂ := .bf16)
    (Cert.Linear.contracts_of_lists dot_S5000x128_S128x128_S5000x128_1_0_0_1_n_n rfl rfl rfl rfl rfl rfl) none x w)
  exact congrArg (fun v => FloatOps.matmul (F := Ideal) dot_S5000x128_S128x128_S5000x128_1_0_0_1_n_n none (φ₁ := .bf16) (φ₂ := .bf16) x v
    (constant (F := Ideal) S5000x128 .f32 0x00000000#32)) (shapeCast_self w shapeCasts_S128x128_S128x128)

/-- The printed index maps over the ten points: the row-block windows (left operand, result) are at block `(t, 0)`,
    the matrix window at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left operand's block at point `t` is the array's entry in row `5000 t + y 0`, same column. -/
theorem xblk0 (c : Dev nD) (t : Fin cfg0.N) (y : S5000x128.Idx) (i : S50000x128.Idx)
    (h0 : (i 0).val = t.val * 5000 + (y 0).val) (h1 : (i 1).val = (y 1).val) :
    (Gen.iblk0 V c 0 t : S5000x128.Idx → EReal) y = (V c main_arg0 : S50000x128.Idx → EReal) i := by
  obtain ⟨e0, e1, -⟩ := idx0 t
  show (V c main_arg0 : S50000x128.Idx → EReal) (((cfg0.win 0).blk t).view.emb y) = _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The matrix window's block at any point is the whole matrix. -/
theorem wblk0 (c : Dev nD) (t : Fin cfg0.N) (y : S128x128.Idx) :
    (Gen.iblk0 V c 1 t : S128x128.Idx → EReal) y = (V c main_v30 : S128x128.Idx → EReal) y := by
  obtain ⟨-, -, e2, e3, -⟩ := idx0 t
  show (V c main_v30 : S128x128.Idx → EReal) (((cfg0.win 1).blk t).view.emb y) = _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point `t` writes back is block `t` of the whole product: a row of a product depends on that row of the left
    operand only, and rows `5000 t … 5000 t + 4999` of the left operand are the block the point loaded. -/
theorem flushed0 (c : Dev nD) (t : Fin cfg0.N) :
    (Gen.dat0 V c).flushed 2 t = ((cfg0.win 2).blk t).view.read (Elt Ideal) (Cert.Linear.matProd (V c main_arg0) (V c main_v30)) := by
  show (cfg0.win 2).cut (grid0.coords t) ((Gen.dat0 V c).after 2 t) = _
  rw [Gen.after0_2]
  unfold Gen.out0_2
  rw [View.canon_unit_zero hz]
  simp only [View.ld_unit_zero (S := S5000x128) hz, View.ld_unit_zero (S := S128x128) hz]
  rw [pay0]
  obtain ⟨-, -, -, -, e4, e5⟩ := idx0 t
  funext j
  show Cert.Linear.matProd (Gen.iblk0 V c 0 t) (Gen.iblk0 V c 1 t) j
    = Cert.Linear.matProd (V c main_arg0) (V c main_v30) (((cfg0.win 2).blk t).view.emb j)
  refine Cert.Linear.matProd_of_rows (V c main_arg0) (V c main_v30) (Gen.iblk0 V c 0 t) (Gen.iblk0 V c 1 t) j
    (((cfg0.win 2).blk t).view.emb j) (fun k => xblk0 V c t _ _ ?_ rfl) (fun k => ?_)
  · show win0_2.index t (0 : Fin 2) * 5000 + 1 * (j 0).val = t.val * 5000 + (j 0).val
    rw [e4]; omega
  · refine (wblk0 V c t _).trans (congrArg (V c main_v30 : S128x128.Idx → EReal) ?_)
    funext a
    apply Fin.ext
    match a with
    | ⟨0, _⟩ => rfl
    | ⟨1, _⟩ => show (j 1).val = win0_2.index t (1 : Fin 2) * 128 + 1 * (j 1).val; rw [e5]; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The ten blocks of 5000 rows tile the 50000 rows: row `r` is in the block of point `r / 5000`. -/
theorem cover0 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := Gen.N_0
  have ht : (i 0).val / 5000 < cfg0.N := by rw [hN]; omega
  obtain ⟨-, -, -, -, e4, e5⟩ := idx0 ⟨(i 0).val / 5000, ht⟩
  refine ⟨⟨(i 0).val / 5000, ht⟩, Gen.flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After region 0 its result array holds the whole product of the two arrays the region was entered with. -/
theorem final0 (c : Dev nD) :
    (Gen.dat0 V c).arrAt 2 cfg0.N = Cert.Linear.matProd (V c main_arg0) (V c main_v30) :=
  (Gen.dat0 V c).arrAt_eq_of_cover 2 (Cert.Linear.matProd (V c main_arg0) (V c main_v30)) (fun t _ => flushed0 V c t) cover0

/-! ## Region 2: blocks of 5000 rows of the left operand times the whole 128 × 128 matrix -/

/-- The body's stored value is the plain product of the block of rows it loaded with the matrix it loaded: the
    narrowing to bf16 before the matrix unit is the identity on extended reals, the casts of both operands to their own
    shapes are the identity, and the accumulator is the zero splat. -/
theorem pay2 (x : Vec Ideal S5000x128 .f32) (w : Vec Ideal S128x128 .f32) :
    Gen.k2_pay1 (F := Ideal) x w = Cert.Linear.matProd x w := by
  unfold Gen.k2_pay1
  refine Eq.trans ?_ (Cert.Linear.matmul_zero_eq (φ₁ := .bf16) (φ₂ := .bf16)
    (Cert.Linear.contracts_of_lists dot_S5000x128_S128x128_S5000x128_1_0_0_1_n_n rfl rfl rfl rfl rfl rfl) none x w)
  exact congrArg₂ (fun u v => FloatOps.matmul (F := Ideal) dot_S5000x128_S128x128_S5000x128_1_0_0_1_n_n none (φ₁ := .bf16) (φ₂ := .bf16) u v
    (constant (F := Ideal) S5000x128 .f32 0x00000000#32)) (shapeCast_self x shapeCasts_S5000x128_S5000x128) (shapeCast_self w shapeCasts_S128x128_S128x128)

/-- The printed index maps over the ten points: the row-block windows (left operand, result) are at block `(t, 0)`,
    the matrix window at block `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the left operand's block at point `t` is the array's entry in row `5000 t + y 0`, same column. -/
theorem xblk2 (c : Dev nD) (t : Fin cfg2.N) (y : S5000x128.Idx) (i : S50000x128.Idx)
    (h0 : (i 0).val = t.val * 5000 + (y 0).val) (h1 : (i 1).val = (y 1).val) :
    (Gen.iblk2 V c 0 t : S5000x128.Idx → EReal) y = (V c main_v47 : S50000x128.Idx → EReal) i := by
  obtain ⟨e0, e1, -⟩ := idx2 t
  show (V c main_v47 : S50000x128.Idx → EReal) (((cfg2.win 0).blk t).view.emb y) = _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The matrix window's block at any point is the whole matrix. -/
theorem wblk2 (c : Dev nD) (t : Fin cfg2.N) (y : S128x128.Idx) :
    (Gen.iblk2 V c 1 t : S128x128.Idx → EReal) y = (V c main_v49 : S128x128.Idx → EReal) y := by
  obtain ⟨-, -, e2, e3, -⟩ := idx2 t
  show (V c main_v49 : S128x128.Idx → EReal) (((cfg2.win 1).blk t).view.emb y) = _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- What point `t` writes back is block `t` of the whole product: a row of a product depends on that row of the left
    operand only, and rows `5000 t … 5000 t + 4999` of the left operand are the block the point loaded. -/
theorem flushed2 (c : Dev nD) (t : Fin cfg2.N) :
    (Gen.dat2 V c).flushed 2 t = ((cfg2.win 2).blk t).view.read (Elt Ideal) (Cert.Linear.matProd (V c main_v47) (V c main_v49)) := by
  show (cfg2.win 2).cut (grid2.coords t) ((Gen.dat2 V c).after 2 t) = _
  rw [Gen.after2_2]
  unfold Gen.out2_2
  rw [View.canon_unit_zero hz]
  simp only [View.ld_unit_zero (S := S5000x128) hz, View.ld_unit_zero (S := S128x128) hz]
  rw [pay2]
  obtain ⟨-, -, -, -, e4, e5⟩ := idx2 t
  funext j
  show Cert.Linear.matProd (Gen.iblk2 V c 0 t) (Gen.iblk2 V c 1 t) j
    = Cert.Linear.matProd (V c main_v47) (V c main_v49) (((cfg2.win 2).blk t).view.emb j)
  refine Cert.Linear.matProd_of_rows (V c main_v47) (V c main_v49) (Gen.iblk2 V c 0 t) (Gen.iblk2 V c 1 t) j
    (((cfg2.win 2).blk t).view.emb j) (fun k => xblk2 V c t _ _ ?_ rfl) (fun k => ?_)
  · show win2_2.index t (0 : Fin 2) * 5000 + 1 * (j 0).val = t.val * 5000 + (j 0).val
    rw [e4]; omega
  · refine (wblk2 V c t _).trans (congrArg (V c main_v49 : S128x128.Idx → EReal) ?_)
    funext a
    apply Fin.ext
    match a with
    | ⟨0, _⟩ => rfl
    | ⟨1, _⟩ => show (j 1).val = win2_2.index t (1 : Fin 2) * 128 + 1 * (j 1).val; rw [e5]; omega

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- The ten blocks of 5000 rows tile the 50000 rows: row `r` is in the block of point `r / 5000`. -/
theorem cover2 (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : cfg2.N = 10 := Gen.N_2
  have ht : (i 0).val / 5000 < cfg2.N := by rw [hN]; omega
  obtain ⟨-, -, -, -, e4, e5⟩ := idx2 ⟨(i 0).val / 5000, ht⟩
  refine ⟨⟨(i 0).val / 5000, ht⟩, Gen.flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]; omega

/-- After region 2 its result array holds the whole product of the two arrays the region was entered with. -/
theorem final2 (c : Dev nD) :
    (Gen.dat2 V c).arrAt 2 cfg2.N = Cert.Linear.matProd (V c main_v47) (V c main_v49) :=
  (Gen.dat2 V c).arrAt_eq_of_cover 2 (Cert.Linear.matProd (V c main_v47) (V c main_v49)) (fun t _ => flushed2 V c t) cover2

/-! ## Region 4: blocks of 5000 rows of the left operand times the whole 128 × 128 matrix -/

/-- The body's stored value is the plain product of the block of rows it loaded with the matrix it loaded: the
    narrowing to bf16 before the matrix unit is the identity on extended reals, the casts of both operands to their own
    shapes are the identity, and the accumulator is the zero splat. -/
theorem pay4 (x : Vec Ideal S5000x128 .f32) (w : Vec Ideal S128x128 .f32) :
    Gen.k4_pay1 (F := Ideal) x w = Cert.Linear.matProd x w := by
  unfold Gen.k4_pay1
  refine Eq.trans ?_ (Cert.Linear.matmul_zero_eq (φ₁ := .bf16) (φ₂ := .bf16)
    (Cert.Linear.contracts_of_lists dot_S5000x128_S128x128_S5000x128_1_0_0_1_n_n rfl rfl rfl rfl rfl rfl) none x w)
  exact congrArg₂ (fun u v => FloatOps.matmul (F := Ideal) dot_S5000x128_S128x128_S5000x128_1_0_0_1_n_n none (φ₁ := .bf16) (φ₂ := .bf16) u v
    (constant (F := Ideal) S5000x128 .f32 0x00000000#32)) (shapeCast_self x shapeCasts_S5000x128_S5000x128) (shapeCast_self w shapeCasts_S128x128_S128x128)

/-- The printed index maps over the ten points: the row-block windows (left operand, result) are at block `(t, 0)`,
    the matrix window at block `(0, 0)`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `y` of the left operand's block at point `t` is the array's entry in row `5000 t + y 0`, same column. -/
theorem xblk4 (c : Dev nD) (t : Fin cfg4.N) (y : S5000x128.Idx) (i : S50000x128.Idx)
    (h0 : (i 0).val = t.val * 5000 + (y 0).val) (h1 : (i 1).val = (y 1).val) :
    (Gen.iblk4 V c 0 t : S5000x128.Idx → EReal) y = (V c main_v66 : S50000x128.Idx → EReal) i := by
  obtain ⟨e0, e1, -⟩ := idx4 t
  show (V c main_v66 : S50000x128.Idx → EReal) (((cfg4.win 0).blk t).view.emb y) = _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The matrix window's block at any point is the whole matrix. -/
theorem wblk4 (c : Dev nD) (t : Fin cfg4.N) (y : S128x128.Idx) :
    (Gen.iblk4 V c 1 t : S128x128.Idx → EReal) y = (V c main_v68 : S128x128.Idx → EReal) y := by
  obtain ⟨-, -, e2, e3, -⟩ := idx4 t
  show (V c main_v68 : S128x128.Idx → EReal) (((cfg4.win 1).blk t).view.emb y) = _
  congr 1
  funext a
  apply Fin.ext
  match a with
  | ⟨0, _⟩ => show win4_1.index t (0 : Fin 2) * 128 + 1 * (y 0).val = (y 0).val; rw [e2]; omega
  | ⟨1, _⟩ => show win4_1.index t (1 : Fin 2) * 128 + 1 * (y 1).val = (y 1).val; rw [e3]; omega

/-- What point `t` writes back is block `t` of the whole product: a row of a product depends on that row of the left
    operand only, and rows `5000 t … 5000 t + 4999` of the left operand are the block the point loaded. -/
theorem flushed4 (c : Dev nD) (t : Fin cfg4.N) :
    (Gen.dat4 V c).flushed 2 t = ((cfg4.win 2).blk t).view.read (Elt Ideal) (Cert.Linear.matProd (V c main_v66) (V c main_v68)) := by
  show (cfg4.win 2).cut (grid4.coords t) ((Gen.dat4 V c).after 2 t) = _
  rw [Gen.after4_2]
  unfold Gen.out4_2
  rw [View.canon_unit_zero hz]
  simp only [View.ld_unit_zero (S := S5000x128) hz, View.ld_unit_zero (S := S128x128) hz]
  rw [pay4]
  obtain ⟨-, -, -, -, e4, e5⟩ := idx4 t
  funext j
  show Cert.Linear.matProd (Gen.iblk4 V c 0 t) (Gen.iblk4 V c 1 t) j
    = Cert.Linear.matProd (V c main_v66) (V c main_v68) (((cfg4.win 2).blk t).view.emb j)
  refine Cert.Linear.matProd_of_rows (V c main_v66) (V c main_v68) (Gen.iblk4 V c 0 t) (Gen.iblk4 V c 1 t) j
    (((cfg4.win 2).blk t).view.emb j) (fun k => xblk4 V c t _ _ ?_ rfl) (fun k => ?_)
  · show win4_2.index t (0 : Fin 2) * 5000 + 1 * (j 0).val = t.val * 5000 + (j 0).val
    rw [e4]; omega
  · refine (wblk4 V c t _).trans (congrArg (V c main_v68 : S128x128.Idx → EReal) ?_)
    funext a
    apply Fin.ext
    match a with
    | ⟨0, _⟩ => rfl
    | ⟨1, _⟩ => show (j 1).val = win4_2.index t (1 : Fin 2) * 128 + 1 * (j 1).val; rw [e5]; omega

/-- An index of the result array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v72).slice (win4_2.rect t)).set ↔ _
  rw [View.set_slice_whole, Rect.mem_set_unit]
  exact Iff.rfl

/-- The ten blocks of 5000 rows tile the 50000 rows: row `r` is in the block of point `r / 5000`. -/
theorem cover4 (i : S50000x128.Idx) :
    ∃ t : Fin cfg4.N, (cfg4.win 2).flush t = true ∧ i ∈ ((cfg4.win 2).blk t).view.set := by
  have hi0 : (i 0).val < 50000 := idx2_lt0 i
  have hi1 : (i 1).val < 128 := idx2_lt1 i
  have hN : cfg4.N = 10 := Gen.N_4
  have ht : (i 0).val / 5000 < cfg4.N := by rw [hN]; omega
  obtain ⟨-, -, -, -, e4, e5⟩ := idx4 ⟨(i 0).val / 5000, ht⟩
  refine ⟨⟨(i 0).val / 5000, ht⟩, Gen.flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- After region 4 its result array holds the whole product of the two arrays the region was entered with. -/
theorem final4 (c : Dev nD) :
    (Gen.dat4 V c).arrAt 2 cfg4.N = Cert.Linear.matProd (V c main_v66) (V c main_v68) :=
  (Gen.dat4 V c).arrAt_eq_of_cover 2 (Cert.Linear.matProd (V c main_v66) (V c main_v68)) (fun t _ => flushed4 V c t) cover4

end Cert.KernelIdeal.RegionValue

end
-- ==== Proof.RegionF.lean ====
/-
  The three finalize regions, each read as ONE whole-array function of the arrays it was entered with.

  Each region walks ten grid points. At point `t` it loads rows `5000 t … 5000 t + 4999` of the 50000 × 128 aggregate,
  of the 50000 × 128 features and of the 50000 × 1 scaling column, and the whole 1 × 128 bias row, and stores
  `max ((aggregate + features · column) + bias, 0)` entry by entry, the column spread over the 128 columns and the bias
  row over the 5000 rows; the block is written back as rows `5000 t … 5000 t + 4999` of the result array. Entry
  `(r, q)` of that combine reads row `r` of the three row-blocked operands and column `q` of the bias row, so the block
  written at point `t` is block `t` of the combine of the WHOLE arrays; the ten blocks tile the 50000 rows (row `r`
  lies in block `r / 5000`), so after the region the result array is that whole combine.
-/
import proofs.«122488_j2800318677025_1_alg».proof.Proof.Gen.KernelIdeal.Frame
import proofs.«122488_j2800318677025_1_alg».proof.Proof.LibSelfLoop
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, however they are spelt. -/
theorem hzF : (![0, 0] : Fin 2 → Nat) = fun _ => 0 := funext fun a => by fin_cases a <;> rfl

/-- Entry `j` of the combine of blocks is entry `i` of the combine of whole arrays as soon as the aggregate and the
    features agree there, row `j 0` of the block column is row `i 0` of the whole column, and column `j 1` of the block
    bias row is column `i 1` of the whole bias row. -/
theorem selfLoopMax_of_rows {R r K : Nat} (A H : (Cert.SelfLoop.Mat R K).Idx → EReal) (D : (Cert.SelfLoop.Mat R 1).Idx → EReal)
    (B : (Cert.SelfLoop.Mat 1 K).Idx → EReal) (a h : (Cert.SelfLoop.Mat r K).Idx → EReal) (d : (Cert.SelfLoop.Mat r 1).Idx → EReal)
    (b : (Cert.SelfLoop.Mat 1 K).Idx → EReal) (z : EReal) (j : (Cert.SelfLoop.Mat r K).Idx) (i : (Cert.SelfLoop.Mat R K).Idx)
    (ha : a j = A i) (hh : h j = H i)
    (hd : d (ix2 (n0 := r) (n1 := 1) (j 0) 0) = D (ix2 (n0 := R) (n1 := 1) (i 0) 0))
    (hb : b (ix2 (n0 := 1) (n1 := K) 0 (j 1)) = B (ix2 (n0 := 1) (n1 := K) 0 (i 1))) :
    Cert.SelfLoop.selfLoopMax a h d b z j = Cert.SelfLoop.selfLoopMax A H D B z i := by
  unfold Cert.SelfLoop.selfLoopMax
  rw [ha, hh, hd, hb]

/-! ## Region 1: blocks of 5000 rows of the aggregate, the features and the scaling column; the whole bias row -/

/-- The body's stored value is the self-loop combine of the four blocks it loaded. -/
theorem pay1 (a h : Vec Ideal S5000x128 .f32) (d : Vec Ideal S5000x1 .f32) (b : Vec Ideal S1x128 .f32) :
    Gen.k1_pay1 (F := Ideal) a h d b = Cert.SelfLoop.selfLoopMax a h d b (Scalar.ofBits (F := Ideal) .f32 0x00000000#32) := by
  unfold Gen.k1_pay1
  exact Cert.SelfLoop.selfLoopMax_of_vector_ops a h d b (Scalar.ofBits (F := Ideal) .f32 0x00000000#32)
    shapeCasts_S5000x128_S5000x128 shapeCasts_S5000x1_S5000x1 broadcasts_S5000x1_S5000x128
    shapeCasts_S1x128_S1x128 broadcasts_S1x128_S5000x128

/-- The printed index maps over the ten points: the four row-block windows (aggregate, features, scaling column,
    result) are at block `(t, 0)`, the bias row's window at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `y` of the aggregate's block at point `t` is the array's entry in row `5000 t + y 0`, same column. -/
theorem ablk1 (c : Dev nD) (t : Fin cfg1.N) (y : S5000x128.Idx) (i : S50000x128.Idx)
    (h0 : (i 0).val = t.val * 5000 + (y 0).val) (h1 : (i 1).val = (y 1).val) :
    (Gen.iblk1 V c 0 t : S5000x128.Idx → EReal) y = (V c main_v46 : S50000x128.Idx → EReal) i := by
  obtain ⟨e0, e1, -⟩ := idx1 t
  show (V c main_v46 : S50000x128.Idx → EReal) (((cfg1.win 0).blk t).view.emb y) = _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Entry `y` of the features' block at point `t` is the array's entry in row `5000 t + y 0`, same column. -/
theorem hblk1 (c : Dev nD) (t : Fin cfg1.N) (y : S5000x128.Idx) (i : S50000x128.Idx)
    (h0 : (i 0).val = t.val * 5000 + (y 0).val) (h1 : (i 1).val = (y 1).val) :
    (Gen.iblk1 V c 1 t : S5000x128.Idx → EReal) y = (V c main_v34 : S50000x128.Idx → EReal) i := by
  obtain ⟨-, -, e0, e1, -⟩ := idx1 t
  show (V c main_v34 : S50000x128.Idx → EReal) (((cfg1.win 1).blk t).view.emb y) = _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- Entry `y` of the scaling column's block at point `t` is the column's entry in row `5000 t + y 0`. -/
theorem dblk1 (c : Dev nD) (t : Fin cfg1.N) (y : S5000x1.Idx) (i : S50000x1.Idx)
    (h0 : (i 0).val = t.val * 5000 + (y 0).val) (h1 : (i 1).val = (y 1).val) :
    (Gen.iblk1 V c 2 t : S5000x1.Idx → EReal) y = (V c main_v12 : S50000x1.Idx → EReal) i := by
  obtain ⟨-, -, -, -, e0, e1, -⟩ := idx1 t
  show (V c main_v12 : S50000x1.Idx → EReal) (((cfg1.win 2).blk t).view.emb y) = _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The bias row's block at any point is the whole row. -/
theorem bblk1 (c : Dev nD) (t : Fin cfg1.N) (y : S1x128.Idx) :
    (Gen.iblk1 V c 3 t : S1x128.Idx → EReal) y = (V c main_v33 : S1x128.Idx → EReal) y := by
  obtain ⟨-, -, -, -, -, -, e0, e1, -⟩ := idx1 t
  show (V c main_v33 : S1x128.Idx → EReal) (((cfg1.win 3).blk t).view.emb y) = _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- What point `t` writes back is block `t` of the whole combine: entry `(r, q)` of the combine reads row `r` of the
    aggregate, the features and the scaling column, and column `q` of the bias row, and rows `5000 t … 5000 t + 4999`
    of the three are the blocks the point loaded. -/
theorem flushed1 (c : Dev nD) (t : Fin cfg1.N) :
    (Gen.dat1 V c).flushed 4 t = ((cfg1.win 4).blk t).view.read (Elt Ideal)
      (Cert.SelfLoop.selfLoopMax (V c main_v46) (V c main_v34) (V c main_v12) (V c main_v33) (Scalar.ofBits (F := Ideal) .f32 0x00000000#32)) := by
  show (cfg1.win 4).cut (grid1.coords t) ((Gen.dat1 V c).after 4 t) = _
  rw [Gen.after1_4]
  unfold Gen.out1_4
  rw [View.canon_unit_zero hzF]
  simp only [View.ld_unit_zero (S := S5000x128) hzF, View.ld_unit_zero (S := S5000x1) hzF, View.ld_unit_zero (S := S1x128) hzF]
  rw [pay1]
  obtain ⟨-, -, -, -, -, -, -, -, e8, e9⟩ := idx1 t
  funext j
  show Cert.SelfLoop.selfLoopMax (Gen.iblk1 V c 0 t) (Gen.iblk1 V c 1 t) (Gen.iblk1 V c 2 t) (Gen.iblk1 V c 3 t)
      (Scalar.ofBits (F := Ideal) .f32 0x00000000#32) j
    = Cert.SelfLoop.selfLoopMax (V c main_v46) (V c main_v34) (V c main_v12) (V c main_v33) (Scalar.ofBits (F := Ideal) .f32 0x00000000#32)
      (((cfg1.win 4).blk t).view.emb j)
  have r0 : ((((cfg1.win 4).blk t).view.emb j) 0).val = t.val * 5000 + (j 0).val := by
    show win1_4.index t (0 : Fin 2) * 5000 + 1 * (j 0).val = t.val * 5000 + (j 0).val
    rw [e8]; omega
  have r1 : ((((cfg1.win 4).blk t).view.emb j) 1).val = (j 1).val := by
    show win1_4.index t (1 : Fin 2) * 128 + 1 * (j 1).val = (j 1).val
    rw [e9]; omega
  refine selfLoopMax_of_rows (V c main_v46) (V c main_v34) (V c main_v12) (V c main_v33) (Gen.iblk1 V c 0 t) (Gen.iblk1 V c 1 t)
    (Gen.iblk1 V c 2 t) (Gen.iblk1 V c 3 t) (Scalar.ofBits (F := Ideal) .f32 0x00000000#32) j (((cfg1.win 4).blk t).view.emb j)
    (ablk1 V c t _ _ r0 r1) (hblk1 V c t _ _ r0 r1) (dblk1 V c t _ _ r0 rfl) ?_
  refine (bblk1 V c t _).trans (congrArg (V c main_v33 : S1x128.Idx → EReal) ?_)
  funext a
  apply Fin.ext
  match a with
  | ⟨0, _⟩ => rfl
  | ⟨1, _⟩ => exact r1.symm

/-- An index of the result array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- The ten blocks of 5000 rows tile the 50000 rows: row `r` is in the block of point `r / 5000`. -/
theorem cover1 (i : S50000x128.Idx) :
    ∃ t : Fin cfg1.N, (cfg1.win 4).flush t = true ∧ i ∈ ((cfg1.win 4).blk t).view.set := by
  have hi0 : (i 0).val < 50000 := idx2_lt0 i
  have hi1 : (i 1).val < 128 := idx2_lt1 i
  have hN : cfg1.N = 10 := Gen.N_1
  have ht : (i 0).val / 5000 < cfg1.N := by rw [hN]; omega
  obtain ⟨-, -, -, -, -, -, -, -, e8, e9⟩ := idx1 ⟨(i 0).val / 5000, ht⟩
  refine ⟨⟨(i 0).val / 5000, ht⟩, Gen.flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e9]; omega

/-- After region 1 its result array holds the whole self-loop combine of the four arrays the region was entered with. -/
theorem final1 (c : Dev nD) :
    (Gen.dat1 V c).arrAt 4 cfg1.N
      = Cert.SelfLoop.selfLoopMax (V c main_v46) (V c main_v34) (V c main_v12) (V c main_v33) (Scalar.ofBits (F := Ideal) .f32 0x00000000#32) :=
  (Gen.dat1 V c).arrAt_eq_of_cover 4
    (Cert.SelfLoop.selfLoopMax (V c main_v46) (V c main_v34) (V c main_v12) (V c main_v33) (Scalar.ofBits (F := Ideal) .f32 0x00000000#32))
    (fun t _ => flushed1 V c t) cover1

/-! ## Region 3: blocks of 5000 rows of the aggregate, the features and the scaling column; the whole bias row -/

/-- The body's stored value is the self-loop combine of the four blocks it loaded. -/
theorem pay3 (a h : Vec Ideal S5000x128 .f32) (d : Vec Ideal S5000x1 .f32) (b : Vec Ideal S1x128 .f32) :
    Gen.k3_pay1 (F := Ideal) a h d b = Cert.SelfLoop.selfLoopMax a h d b (Scalar.ofBits (F := Ideal) .f32 0x00000000#32) := by
  unfold Gen.k3_pay1
  exact Cert.SelfLoop.selfLoopMax_of_vector_ops a h d b (Scalar.ofBits (F := Ideal) .f32 0x00000000#32)
    shapeCasts_S5000x128_S5000x128 shapeCasts_S5000x1_S5000x1 broadcasts_S5000x1_S5000x128
    shapeCasts_S1x128_S1x128 broadcasts_S1x128_S5000x128

/-- The printed index maps over the ten points: the four row-block windows (aggregate, features, scaling column,
    result) are at block `(t, 0)`, the bias row's window at block `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry `y` of the aggregate's block at point `t` is the array's entry in row `5000 t + y 0`, same column. -/
theorem ablk3 (c : Dev nD) (t : Fin cfg3.N) (y : S5000x128.Idx) (i : S50000x128.Idx)
    (h0 : (i 0).val = t.val * 5000 + (y 0).val) (h1 : (i 1).val = (y 1).val) :
    (Gen.iblk3 V c 0 t : S5000x128.Idx → EReal) y = (V c main_v65 : S50000x128.Idx → EReal) i := by
  obtain ⟨e0, e1, -⟩ := idx3 t
  show (V c main_v65 : S50000x128.Idx → EReal) (((cfg3.win 0).blk t).view.emb y) = _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- Entry `y` of the features' block at point `t` is the array's entry in row `5000 t + y 0`, same column. -/
theorem hblk3 (c : Dev nD) (t : Fin cfg3.N) (y : S5000x128.Idx) (i : S50000x128.Idx)
    (h0 : (i 0).val = t.val * 5000 + (y 0).val) (h1 : (i 1).val = (y 1).val) :
    (Gen.iblk3 V c 1 t : S5000x128.Idx → EReal) y = (V c main_v53 : S50000x128.Idx → EReal) i := by
  obtain ⟨-, -, e0, e1, -⟩ := idx3 t
  show (V c main_v53 : S50000x128.Idx → EReal) (((cfg3.win 1).blk t).view.emb y) = _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 128 + 1 * (y 1).val = (i 1).val; rw [e1, h1]; omega

/-- Entry `y` of the scaling column's block at point `t` is the column's entry in row `5000 t + y 0`. -/
theorem dblk3 (c : Dev nD) (t : Fin cfg3.N) (y : S5000x1.Idx) (i : S50000x1.Idx)
    (h0 : (i 0).val = t.val * 5000 + (y 0).val) (h1 : (i 1).val = (y 1).val) :
    (Gen.iblk3 V c 2 t : S5000x1.Idx → EReal) y = (V c main_v12 : S50000x1.Idx → EReal) i := by
  obtain ⟨-, -, -, -, e0, e1, -⟩ := idx3 t
  show (V c main_v12 : S50000x1.Idx → EReal) (((cfg3.win 2).blk t).view.emb y) = _
  congr 1
  funext a
  apply Fin.ext
  match a with
  | ⟨0, _⟩ => show win3_2.index t (0 : Fin 2) * 5000 + 1 * (y 0).val = (i 0).val; rw [e0, h0]; omega
  | ⟨1, _⟩ => show win3_2.index t (1 : Fin 2) * 1 + 1 * (y 1).val = (i 1).val; rw [e1, h1]; omega

/-- The bias row's block at any point is the whole row. -/
theorem bblk3 (c : Dev nD) (t : Fin cfg3.N) (y : S1x128.Idx) :
    (Gen.iblk3 V c 3 t : S1x128.Idx → EReal) y = (V c main_v52 : S1x128.Idx → EReal) y := by
  obtain ⟨-, -, -, -, -, -, e0, e1, -⟩ := idx3 t
  show (V c main_v52 : S1x128.Idx → EReal) (((cfg3.win 3).blk t).view.emb y) = _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- What point `t` writes back is block `t` of the whole combine: entry `(r, q)` of the combine reads row `r` of the
    aggregate, the features and the scaling column, and column `q` of the bias row, and rows `5000 t … 5000 t + 4999`
    of the three are the blocks the point loaded. -/
theorem flushed3 (c : Dev nD) (t : Fin cfg3.N) :
    (Gen.dat3 V c).flushed 4 t = ((cfg3.win 4).blk t).view.read (Elt Ideal)
      (Cert.SelfLoop.selfLoopMax (V c main_v65) (V c main_v53) (V c main_v12) (V c main_v52) (Scalar.ofBits (F := Ideal) .f32 0x00000000#32)) := by
  show (cfg3.win 4).cut (grid3.coords t) ((Gen.dat3 V c).after 4 t) = _
  rw [Gen.after3_4]
  unfold Gen.out3_4
  rw [View.canon_unit_zero hzF]
  simp only [View.ld_unit_zero (S := S5000x128) hzF, View.ld_unit_zero (S := S5000x1) hzF, View.ld_unit_zero (S := S1x128) hzF]
  rw [pay3]
  obtain ⟨-, -, -, -, -, -, -, -, e8, e9⟩ := idx3 t
  funext j
  show Cert.SelfLoop.selfLoopMax (Gen.iblk3 V c 0 t) (Gen.iblk3 V c 1 t) (Gen.iblk3 V c 2 t) (Gen.iblk3 V c 3 t)
      (Scalar.ofBits (F := Ideal) .f32 0x00000000#32) j
    = Cert.SelfLoop.selfLoopMax (V c main_v65) (V c main_v53) (V c main_v12) (V c main_v52) (Scalar.ofBits (F := Ideal) .f32 0x00000000#32)
      (((cfg3.win 4).blk t).view.emb j)
  have r0 : ((((cfg3.win 4).blk t).view.emb j) 0).val = t.val * 5000 + (j 0).val := by
    show win3_4.index t (0 : Fin 2) * 5000 + 1 * (j 0).val = t.val * 5000 + (j 0).val
    rw [e8]; omega
  have r1 : ((((cfg3.win 4).blk t).view.emb j) 1).val = (j 1).val := by
    show win3_4.index t (1 : Fin 2) * 128 + 1 * (j 1).val = (j 1).val
    rw [e9]; omega
  refine selfLoopMax_of_rows (V c main_v65) (V c main_v53) (V c main_v12) (V c main_v52) (Gen.iblk3 V c 0 t) (Gen.iblk3 V c 1 t)
    (Gen.iblk3 V c 2 t) (Gen.iblk3 V c 3 t) (Scalar.ofBits (F := Ideal) .f32 0x00000000#32) j (((cfg3.win 4).blk t).view.emb j)
    (ablk3 V c t _ _ r0 r1) (hblk3 V c t _ _ r0 r1) (dblk3 V c t _ _ r0 rfl) ?_
  refine (bblk3 V c t _).trans (congrArg (V c main_v52 : S1x128.Idx → EReal) ?_)
  funext a
  apply Fin.ext
  match a with
  | ⟨0, _⟩ => rfl
  | ⟨1, _⟩ => exact r1.symm

/-- An index of the result array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v66).slice (win3_4.rect t)).set ↔ _
  rw [View.set_slice_whole, Rect.mem_set_unit]
  exact Iff.rfl

/-- The ten blocks of 5000 rows tile the 50000 rows: row `r` is in the block of point `r / 5000`. -/
theorem cover3 (i : S50000x128.Idx) :
    ∃ t : Fin cfg3.N, (cfg3.win 4).flush t = true ∧ i ∈ ((cfg3.win 4).blk t).view.set := by
  have hi0 : (i 0).val < 50000 := idx2_lt0 i
  have hi1 : (i 1).val < 128 := idx2_lt1 i
  have hN : cfg3.N = 10 := Gen.N_3
  have ht : (i 0).val / 5000 < cfg3.N := by rw [hN]; omega
  obtain ⟨-, -, -, -, -, -, -, -, e8, e9⟩ := idx3 ⟨(i 0).val / 5000, ht⟩
  refine ⟨⟨(i 0).val / 5000, ht⟩, Gen.flush3_4 _, ?_⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e9]; omega

/-- After region 3 its result array holds the whole self-loop combine of the four arrays the region was entered with. -/
theorem final3 (c : Dev nD) :
    (Gen.dat3 V c).arrAt 4 cfg3.N
      = Cert.SelfLoop.selfLoopMax (V c main_v65) (V c main_v53) (V c main_v12) (V c main_v52) (Scalar.ofBits (F := Ideal) .f32 0x00000000#32) :=
  (Gen.dat3 V c).arrAt_eq_of_cover 4
    (Cert.SelfLoop.selfLoopMax (V c main_v65) (V c main_v53) (V c main_v12) (V c main_v52) (Scalar.ofBits (F := Ideal) .f32 0x00000000#32))
    (fun t _ => flushed3 V c t) cover3

/-! ## Region 5: blocks of 5000 rows of the aggregate, the features and the scaling column; the whole bias row -/

/-- The body's stored value is the self-loop combine of the four blocks it loaded. -/
theorem pay5 (a h : Vec Ideal S5000x128 .f32) (d : Vec Ideal S5000x1 .f32) (b : Vec Ideal S1x128 .f32) :
    Gen.k5_pay1 (F := Ideal) a h d b = Cert.SelfLoop.selfLoopMax a h d b (Scalar.ofBits (F := Ideal) .f32 0x00000000#32) := by
  unfold Gen.k5_pay1
  exact Cert.SelfLoop.selfLoopMax_of_vector_ops a h d b (Scalar.ofBits (F := Ideal) .f32 0x00000000#32)
    shapeCasts_S5000x128_S5000x128 shapeCasts_S5000x1_S5000x1 broadcasts_S5000x1_S5000x128
    shapeCasts_S1x128_S1x128 broadcasts_S1x128_S5000x128

/-- The printed index maps over the ten points: the four row-block windows (aggregate, features, scaling column,
    result) are at block `(t, 0)`, the bias row's window at block `(0, 0)`. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry `y` of the aggregate's block at point `t` is the array's entry in row `5000 t + y 0`, same column. -/
theorem ablk5 (c : Dev nD) (t : Fin cfg5.N) (y : S5000x128.Idx) (i : S50000x128.Idx)
    (h0 : (i 0).val = t.val * 5000 + (y 0).val) (h1 : (i 1).val = (y 1).val) :
    (Gen.iblk5 V c 0 t : S5000x128.Idx → EReal) y = (V c main_v84 : S50000x128.Idx → EReal) i := by
  obtain ⟨e0, e1, -⟩ := idx5 t
  show (V c main_v84 : S50000x128.Idx → EReal) (((cfg5.win 0).blk t).view.emb y) = _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- Entry `y` of the features' block at point `t` is the array's entry in row `5000 t + y 0`, same column. -/
theorem hblk5 (c : Dev nD) (t : Fin cfg5.N) (y : S5000x128.Idx) (i : S50000x128.Idx)
    (h0 : (i 0).val = t.val * 5000 + (y 0).val) (h1 : (i 1).val = (y 1).val) :
    (Gen.iblk5 V c 1 t : S5000x128.Idx → EReal) y = (V c main_v72 : S50000x128.Idx → EReal) i := by
  obtain ⟨-, -, e0, e1, -⟩ := idx5 t
  show (V c main_v72 : S50000x128.Idx → EReal) (((cfg5.win 1).blk t).view.emb y) = _
  congr 1
  funext a
  apply Fin.ext
  match a with
  | ⟨0, _⟩ => show win5_1.index t (0 : Fin 2) * 5000 + 1 * (y 0).val = (i 0).val; rw [e0, h0]; omega
  | ⟨1, _⟩ => show win5_1.index t (1 : Fin 2) * 128 + 1 * (y 1).val = (i 1).val; rw [e1, h1]; omega

/-- Entry `y` of the scaling column's block at point `t` is the column's entry in row `5000 t + y 0`. -/
theorem dblk5 (c : Dev nD) (t : Fin cfg5.N) (y : S5000x1.Idx) (i : S50000x1.Idx)
    (h0 : (i 0).val = t.val * 5000 + (y 0).val) (h1 : (i 1).val = (y 1).val) :
    (Gen.iblk5 V c 2 t : S5000x1.Idx → EReal) y = (V c main_v12 : S50000x1.Idx → EReal) i := by
  obtain ⟨-, -, -, -, e0, e1, -⟩ := idx5 t
  show (V c main_v12 : S50000x1.Idx → EReal) (((cfg5.win 2).blk t).view.emb y) = _
  congr 1
  funext a
  apply Fin.ext
  match a with
  | ⟨0, _⟩ => show win5_2.index t (0 : Fin 2) * 5000 + 1 * (y 0).val = (i 0).val; rw [e0, h0]; omega
  | ⟨1, _⟩ => show win5_2.index t (1 : Fin 2) * 1 + 1 * (y 1).val = (i 1).val; rw [e1, h1]; omega

/-- The bias row's block at any point is the whole row. -/
theorem bblk5 (c : Dev nD) (t : Fin cfg5.N) (y : S1x128.Idx) :
    (Gen.iblk5 V c 3 t : S1x128.Idx → EReal) y = (V c main_v71 : S1x128.Idx → EReal) y := by
  obtain ⟨-, -, -, -, -, -, e0, e1, -⟩ := idx5 t
  show (V c main_v71 : S1x128.Idx → EReal) (((cfg5.win 3).blk t).view.emb y) = _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

/-- What point `t` writes back is block `t` of the whole combine: entry `(r, q)` of the combine reads row `r` of the
    aggregate, the features and the scaling column, and column `q` of the bias row, and rows `5000 t … 5000 t + 4999`
    of the three are the blocks the point loaded. -/
theorem flushed5 (c : Dev nD) (t : Fin cfg5.N) :
    (Gen.dat5 V c).flushed 4 t = ((cfg5.win 4).blk t).view.read (Elt Ideal)
      (Cert.SelfLoop.selfLoopMax (V c main_v84) (V c main_v72) (V c main_v12) (V c main_v71) (Scalar.ofBits (F := Ideal) .f32 0x00000000#32)) := by
  show (cfg5.win 4).cut (grid5.coords t) ((Gen.dat5 V c).after 4 t) = _
  rw [Gen.after5_4]
  unfold Gen.out5_4
  rw [View.canon_unit_zero hzF]
  simp only [View.ld_unit_zero (S := S5000x128) hzF, View.ld_unit_zero (S := S5000x1) hzF, View.ld_unit_zero (S := S1x128) hzF]
  rw [pay5]
  obtain ⟨-, -, -, -, -, -, -, -, e8, e9⟩ := idx5 t
  funext j
  show Cert.SelfLoop.selfLoopMax (Gen.iblk5 V c 0 t) (Gen.iblk5 V c 1 t) (Gen.iblk5 V c 2 t) (Gen.iblk5 V c 3 t)
      (Scalar.ofBits (F := Ideal) .f32 0x00000000#32) j
    = Cert.SelfLoop.selfLoopMax (V c main_v84) (V c main_v72) (V c main_v12) (V c main_v71) (Scalar.ofBits (F := Ideal) .f32 0x00000000#32)
      (((cfg5.win 4).blk t).view.emb j)
  have r0 : ((((cfg5.win 4).blk t).view.emb j) 0).val = t.val * 5000 + (j 0).val := by
    show win5_4.index t (0 : Fin 2) * 5000 + 1 * (j 0).val = t.val * 5000 + (j 0).val
    rw [e8]; omega
  have r1 : ((((cfg5.win 4).blk t).view.emb j) 1).val = (j 1).val := by
    show win5_4.index t (1 : Fin 2) * 128 + 1 * (j 1).val = (j 1).val
    rw [e9]; omega
  refine selfLoopMax_of_rows (V c main_v84) (V c main_v72) (V c main_v12) (V c main_v71) (Gen.iblk5 V c 0 t) (Gen.iblk5 V c 1 t)
    (Gen.iblk5 V c 2 t) (Gen.iblk5 V c 3 t) (Scalar.ofBits (F := Ideal) .f32 0x00000000#32) j (((cfg5.win 4).blk t).view.emb j)
    (ablk5 V c t _ _ r0 r1) (hblk5 V c t _ _ r0 r1) (dblk5 V c t _ _ r0 rfl) ?_
  refine (bblk5 V c t _).trans (congrArg (V c main_v71 : S1x128.Idx → EReal) ?_)
  funext a
  apply Fin.ext
  match a with
  | ⟨0, _⟩ => rfl
  | ⟨1, _⟩ => exact r1.symm

/-- An index of the result array is in point `t`'s block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v85).slice (win5_4.rect t)).set ↔ _
  rw [View.set_slice_whole, Rect.mem_set_unit]
  exact Iff.rfl

/-- The ten blocks of 5000 rows tile the 50000 rows: row `r` is in the block of point `r / 5000`. -/
theorem cover5 (i : S50000x128.Idx) :
    ∃ t : Fin cfg5.N, (cfg5.win 4).flush t = true ∧ i ∈ ((cfg5.win 4).blk t).view.set := by
  have hi0 : (i 0).val < 50000 := idx2_lt0 i
  have hi1 : (i 1).val < 128 := idx2_lt1 i
  have hN : cfg5.N = 10 := Gen.N_5
  have ht : (i 0).val / 5000 < cfg5.N := by rw [hN]; omega
  obtain ⟨-, -, -, -, -, -, -, -, e8, e9⟩ := idx5 ⟨(i 0).val / 5000, ht⟩
  refine ⟨⟨(i 0).val / 5000, ht⟩, Gen.flush5_4 _, ?_⟩
  rw [mem_blk5]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val ∧ (i 1).val < win5_4.index ⟨(i 0).val / 5000, ht⟩ (1 : Fin 2) * 128 + 128
    rw [e9]; omega

/-- After region 5 its result array holds the whole self-loop combine of the four arrays the region was entered with. -/
theorem final5 (c : Dev nD) :
    (Gen.dat5 V c).arrAt 4 cfg5.N
      = Cert.SelfLoop.selfLoopMax (V c main_v84) (V c main_v72) (V c main_v12) (V c main_v71) (Scalar.ofBits (F := Ideal) .f32 0x00000000#32) :=
  (Gen.dat5 V c).arrAt_eq_of_cover 4
    (Cert.SelfLoop.selfLoopMax (V c main_v84) (V c main_v72) (V c main_v12) (V c main_v71) (Scalar.ofBits (F := Ideal) .f32 0x00000000#32))
    (fun t _ => flushed5 V c t) cover5

end Cert.KernelIdeal.RegionValue

end
-- ==== Proof.RegionH.lean ====
/-
  The head region, read as ONE whole-array function of the arrays it was entered with.

  The region walks twenty-five grid points. At point `t` it loads rows `2000 t … 2000 t + 1999` of the 50000 × 128
  features, and the whole 128 × 512 first weight matrix, 1 × 512 first bias row, 512 × 64 second weight matrix and 1 × 64
  second bias row; it multiplies the block by the first matrix on the matrix unit into a zero accumulator, adds the
  first bias row to every row, takes the maximum with zero, multiplies by the second matrix, adds the second bias row,
  and writes the 2000 × 64 result back as rows `2000 t … 2000 t + 1999` of the result array. On extended reals the
  narrowings before the matrix unit are the identity. Every step is row by row: row `r` of the result depends on row
  `r` of the features only, so the block written at point `t` is block `t` of the same chain applied to the WHOLE
  features; the twenty-five blocks tile the 50000 rows (row `r` lies in block `r / 2000`), so after the region the
  result array is that whole chain.
-/
import proofs.«122488_j2800318677025_1_alg».proof.Proof.Gen.KernelIdeal.Frame
import proofs.«122488_j2800318677025_1_alg».proof.Proof.LibMatProd
import proofs.«122488_j2800318677025_1_alg».proof.Proof.LibDotLists
import proofs.«122488_j2800318677025_1_alg».proof.Proof.LibRowBlock
import proofs.«122488_j2800318677025_1_alg».proof.Proof.LibSelfLoop
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen
open Cert.Linear (Mat matProd rowBiasMax)
open Cert.SelfLoop (rowBias)

variable (V : (c : Dev nD) → (b : Ref sig .tc) → Buf (Elt Ideal) ((c : Thread nD τ).loc b))

/-- The zero offsets of a whole-buffer access, however they are spelt. -/
theorem hzH : (![0, 0] : Fin 2 → Nat) = fun _ => 0 := funext fun a => by fin_cases a <;> rfl

/-! ## The body's two broadcasting adds, as the body spells them -/

/-- `max (x + broadcast b) (splat z)` over an `R × K` matrix `x` and a `1 × K` row `b` cast once to its own shape is the
    row added to every row, then the maximum with `z`. -/
theorem rowBiasMax_of_ops {R K : Nat} (x : FVec Ideal (Mat R K) .f32) (b : FVec Ideal (Mat 1 K) .f32) (z : Ideal .f32)
    (h2 : (Mat 1 K).ShapeCasts (Mat 1 K)) (h3 : (Mat 1 K).Broadcasts (Mat R K)) :
    maximumf (addf x (broadcastTo (Mat R K) (shapeCast (Mat 1 K) b h2) h3)) (broadcast (Mat R K) z) = rowBiasMax x b z := by
  rw [shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- `x + broadcast b` over an `R × K` matrix `x` and a `1 × K` row `b` cast once to its own shape is the row added to
    every row. -/
theorem rowBias_of_ops {R K : Nat} (x : FVec Ideal (Mat R K) .f32) (b : FVec Ideal (Mat 1 K) .f32)
    (h2 : (Mat 1 K).ShapeCasts (Mat 1 K)) (h3 : (Mat 1 K).Broadcasts (Mat R K)) :
    addf x (broadcastTo (Mat R K) (shapeCast (Mat 1 K) b h2) h3) = rowBias x b := by
  rw [shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-! ## The chain, and its rows -/

/-- `(max (X · W1 + B1, z)) · W2 + B2`, the bias rows added to every row. -/
def headOf {R K M N : Nat} (X : (Mat R K).Idx → EReal) (W1 : (Mat K M).Idx → EReal) (B1 : (Mat 1 M).Idx → EReal)
    (W2 : (Mat M N).Idx → EReal) (B2 : (Mat 1 N).Idx → EReal) (z : EReal) : (Mat R N).Idx → EReal :=
  rowBias (matProd (rowBiasMax (matProd X W1) B1 z) W2) B2

/-- Entry `j` of the chain over a block of rows `x` is entry `i` of the chain over the whole `X` as soon as row `j 0` of
    `x` is row `i 0` of `X`, the columns `j 1` and `i 1` are the same, and the weights and bias rows are the same: every
    step of the chain is row by row. -/
theorem headOf_of_rows {R r K M N : Nat} (X : (Mat R K).Idx → EReal) (x : (Mat r K).Idx → EReal)
    (W1 w1 : (Mat K M).Idx → EReal) (B1 b1 : (Mat 1 M).Idx → EReal) (W2 w2 : (Mat M N).Idx → EReal)
    (B2 b2 : (Mat 1 N).Idx → EReal) (z : EReal) (j : (Mat r N).Idx) (i : (Mat R N).Idx)
    (hx : ∀ k : Fin K, x (ix2 (n0 := r) (n1 := K) (j 0) k) = X (ix2 (n0 := R) (n1 := K) (i 0) k))
    (hc : j 1 = i 1) (hw1 : w1 = W1) (hb1 : b1 = B1) (hw2 : w2 = W2) (hb2 : b2 = B2) :
    headOf x w1 b1 w2 b2 z j = headOf X W1 B1 W2 B2 z i := by
  subst hw1 hb1 hw2 hb2
  show matProd (rowBiasMax (matProd x w1) b1 z) w2 j + b2 (ix2 (n0 := 1) (n1 := N) 0 (j 1))
    = matProd (rowBiasMax (matProd X w1) b1 z) w2 i + b2 (ix2 (n0 := 1) (n1 := N) 0 (i 1))
  rw [hc]
  refine congrArg (· + b2 (ix2 (n0 := 1) (n1 := N) 0 (i 1))) ?_
  refine Cert.Linear.matProd_of_rows (rowBiasMax (matProd X w1) b1 z) w2 (rowBiasMax (matProd x w1) b1 z) w2 j i
    (fun m => ?_) (fun m => by rw [hc])
  show max (matProd x w1 (ix2 (n0 := r) (n1 := M) (j 0) m) + b1 (ix2 (n0 := 1) (n1 := M) 0 m)) z
    = max (matProd X w1 (ix2 (n0 := R) (n1 := M) (i 0) m) + b1 (ix2 (n0 := 1) (n1 := M) 0 m)) z
  rw [Cert.Linear.matProd_of_rows X w1 x w1 (ix2 (n0 := r) (n1 := M) (j 0) m) (ix2 (n0 := R) (n1 := M) (i 0) m)
    (fun k => hx k) (fun k => rfl)]

/-! ## Region 6 -/

/-- The body's stored value is the chain over the block of rows and the four whole operands it loaded. -/
theorem pay6 (x : Vec Ideal S2000x128 .f32) (w1 : Vec Ideal S128x512 .f32) (b1 : Vec Ideal S1x512 .f32)
    (w2 : Vec Ideal S512x64 .f32) (b2 : Vec Ideal S1x64 .f32) :
    Gen.k6_pay1 (F := Ideal) x w1 b1 w2 b2 = headOf x w1 b1 w2 b2 (Scalar.ofBits (F := Ideal) .f32 0x00000000#32) := by
  unfold Gen.k6_pay1 headOf
  refine (rowBias_of_ops _ b2 shapeCasts_S1x64_S1x64 broadcasts_S1x64_S2000x64).trans ?_
  refine congrArg (fun u => rowBias u b2) ?_
  refine (Cert.Linear.matmul_zero_eq (φ₁ := .bf16) (φ₂ := .bf16)
    (Cert.Linear.contracts_of_lists dot_S2000x512_S512x64_S2000x64_1_0_0_1_n_n rfl rfl rfl rfl rfl rfl) none _ w2).trans ?_
  refine congrArg (fun u => matProd u w2) ?_
  refine (rowBiasMax_of_ops _ b1 (Scalar.ofBits (F := Ideal) .f32 0x00000000#32) shapeCasts_S1x512_S1x512 broadcasts_S1x512_S2000x512).trans ?_
  refine congrArg (fun u => rowBiasMax u b1 (Scalar.ofBits (F := Ideal) .f32 0x00000000#32)) ?_
  refine Eq.trans ?_ (Cert.Linear.matmul_zero_eq (φ₁ := .bf16) (φ₂ := .bf16)
    (Cert.Linear.contracts_of_lists dot_S2000x128_S128x512_S2000x512_1_0_0_1_n_n rfl rfl rfl rfl rfl rfl) none x w1)
  exact congrArg (fun u => FloatOps.matmul (F := Ideal) dot_S2000x128_S128x512_S2000x512_1_0_0_1_n_n none (φ₁ := .bf16) (φ₂ := .bf16) u w1
    (constant (F := Ideal) S2000x512 .f32 0x00000000#32)) (shapeCast_self x shapeCasts_S2000x128_S2000x128)

/-- The printed index maps over the twenty-five points: the two row-block windows (features, result) are at block
    `(t, 0)`, the four whole-operand windows at block `(0, 0)`. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Entry `y` of the features' block at point `t` is the array's entry in row `2000 t + y 0`, same column. -/
theorem xblk6 (c : Dev nD) (t : Fin cfg6.N) (y : S2000x128.Idx) (i : S50000x128.Idx)
    (h0 : (i 0).val = t.val * 2000 + (y 0).val) (h1 : (i 1).val = (y 1).val) :
    (Gen.iblk6 V c 0 t : S2000x128.Idx → EReal) y = (V c main_v85 : S50000x128.Idx → EReal) i := by
  obtain ⟨e0, e1, -⟩ := idx6 t
  show (V c main_v85 : S50000x128.Idx → EReal) (((cfg6.win 0).blk t).view.emb y) = _
  congr 1
  funext a
  apply Fin.ext
  match a with
  | ⟨0, _⟩ => show win6_0.index t (0 : Fin 2) * 2000 + 1 * (y 0).val = (i 0).val; rw [e0, h0]; omega
  | ⟨1, _⟩ => show win6_0.index t (1 : Fin 2) * 128 + 1 * (y 1).val = (i 1).val; rw [e1, h1]; omega

/-- The first weight matrix's block at any point is the whole matrix. -/
theorem w1blk6 (c : Dev nD) (t : Fin cfg6.N) :
    (Gen.iblk6 V c 1 t : S128x512.Idx → EReal) = (V c main_arg4 : S128x512.Idx → EReal) := by
  obtain ⟨-, -, e0, e1, -⟩ := idx6 t
  funext y
  show (V c main_arg4 : S128x512.Idx → EReal) (((cfg6.win 1).blk t).view.emb y) = _
  congr 1
  funext a
  apply Fin.ext
  match a with
  | ⟨0, _⟩ => show win6_1.index t (0 : Fin 2) * 128 + 1 * (y 0).val = (y 0).val; rw [e0]; omega
  | ⟨1, _⟩ => show win6_1.index t (1 : Fin 2) * 512 + 1 * (y 1).val = (y 1).val; rw [e1]; omega

/-- The first bias row's block at any point is the whole row. -/
theorem b1blk6 (c : Dev nD) (t : Fin cfg6.N) :
    (Gen.iblk6 V c 2 t : S1x512.Idx → EReal) = (V c main_v86 : S1x512.Idx → EReal) := by
  obtain ⟨-, -, -, -, e0, e1, -⟩ := idx6 t
  funext y
  show (V c main_v86 : S1x512.Idx → EReal) (((cfg6.win 2).blk t).view.emb y) = _
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 512 + 1 * (y 1).val = (y 1).val; rw [e1]; omega

/-- The second weight matrix's block at any point is the whole matrix. -/
theorem w2blk6 (c : Dev nD) (t : Fin cfg6.N) :
    (Gen.iblk6 V c 3 t : S512x64.Idx → EReal) = (V c main_arg6 : S512x64.Idx → EReal) := by
  obtain ⟨-, -, -, -, -, -, e0, e1, -⟩ := idx6 t
  funext y
  show (V c main_arg6 : S512x64.Idx → EReal) (((cfg6.win 3).blk t).view.emb y) = _
  congr 1
  funext a
  apply Fin.ext
  match a with
  | ⟨0, _⟩ => show win6_3.index t (0 : Fin 2) * 512 + 1 * (y 0).val = (y 0).val; rw [e0]; omega
  | ⟨1, _⟩ => show win6_3.index t (1 : Fin 2) * 64 + 1 * (y 1).val = (y 1).val; rw [e1]; omega

/-- The second bias row's block at any point is the whole row. -/
theorem b2blk6 (c : Dev nD) (t : Fin cfg6.N) :
    (Gen.iblk6 V c 4 t : S1x64.Idx → EReal) = (V c main_v87 : S1x64.Idx → EReal) := by
  obtain ⟨-, -, -, -, -, -, -, -, e0, e1, -⟩ := idx6 t
  funext y
  show (V c main_v87 : S1x64.Idx → EReal) (((cfg6.win 4).blk t).view.emb y) = _
  congr 1
  funext a
  apply Fin.ext
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- What point `t` writes back is block `t` of the chain over the whole features: rows `2000 t … 2000 t + 1999` of the
    features are the block the point loaded, and the four other operands are loaded whole. -/
theorem flushed6 (c : Dev nD) (t : Fin cfg6.N) :
    (Gen.dat6 V c).flushed 5 t = ((cfg6.win 5).blk t).view.read (Elt Ideal)
      (headOf (V c main_v85) (V c main_arg4) (V c main_v86) (V c main_arg6) (V c main_v87) (Scalar.ofBits (F := Ideal) .f32 0x00000000#32)) := by
  show (cfg6.win 5).cut (grid6.coords t) ((Gen.dat6 V c).after 5 t) = _
  rw [Gen.after6_5]
  unfold Gen.out6_5
  rw [View.canon_unit_zero hzH]
  simp only [View.ld_unit_zero (S := S2000x128) hzH, View.ld_unit_zero (S := S128x512) hzH, View.ld_unit_zero (S := S1x512) hzH,
    View.ld_unit_zero (S := S512x64) hzH, View.ld_unit_zero (S := S1x64) hzH]
  rw [pay6]
  obtain ⟨-, -, -, -, -, -, -, -, -, -, e10, e11⟩ := idx6 t
  funext j
  show headOf (Gen.iblk6 V c 0 t) (Gen.iblk6 V c 1 t) (Gen.iblk6 V c 2 t) (Gen.iblk6 V c 3 t) (Gen.iblk6 V c 4 t)
      (Scalar.ofBits (F := Ideal) .f32 0x00000000#32) j
    = headOf (V c main_v85) (V c main_arg4) (V c main_v86) (V c main_arg6) (V c main_v87) (Scalar.ofBits (F := Ideal) .f32 0x00000000#32)
      (((cfg6.win 5).blk t).view.emb j)
  refine headOf_of_rows (V c main_v85) (Gen.iblk6 V c 0 t) (V c main_arg4) (Gen.iblk6 V c 1 t) (V c main_v86) (Gen.iblk6 V c 2 t)
    (V c main_arg6) (Gen.iblk6 V c 3 t) (V c main_v87) (Gen.iblk6 V c 4 t) (Scalar.ofBits (F := Ideal) .f32 0x00000000#32) j
    (((cfg6.win 5).blk t).view.emb j) (fun k => xblk6 V c t _ _ ?_ rfl) ?_ (w1blk6 V c t) (b1blk6 V c t) (w2blk6 V c t) (b2blk6 V c t)
  · show win6_5.index t (0 : Fin 2) * 2000 + 1 * (j 0).val = t.val * 2000 + (j 0).val
    rw [e10]; omega
  · apply Fin.ext
    show (j 1).val = win6_5.index t (1 : Fin 2) * 64 + 1 * (j 1).val
    rw [e11]; omega

/-- An index of the result array is in point `t`'s block iff each coordinate is in the block's range on its axis. -/
theorem mem_blk6 (t : Fin cfg6.N) (i : S50000x64.Idx) :
    i ∈ ((cfg6.win 5).blk t).view.set ↔ ∀ a : Fin 2, win6_5.index t a * S2000x64.size a ≤ (i a).val ∧ (i a).val < win6_5.index t a * S2000x64.size a + S2000x64.size a := by
  show i ∈ ((View.whole main_v88).slice (win6_5.rect t)).set ↔ _
  rw [View.set_slice_whole, Rect.mem_set_unit]
  exact Iff.rfl

/-- The twenty-five blocks of 2000 rows tile the 50000 rows: row `r` is in the block of point `r / 2000`. -/
theorem cover6 (i : S50000x64.Idx) :
    ∃ t : Fin cfg6.N, (cfg6.win 5).flush t = true ∧ i ∈ ((cfg6.win 5).blk t).view.set := by
  have hi0 : (i 0).val < 50000 := idx2_lt0 i
  have hi1 : (i 1).val < 64 := idx2_lt1 i
  have hN : cfg6.N = 25 := Gen.N_6
  have ht : (i 0).val / 2000 < cfg6.N := by rw [hN]; omega
  obtain ⟨-, -, -, -, -, -, -, -, -, -, e10, e11⟩ := idx6 ⟨(i 0).val / 2000, ht⟩
  refine ⟨⟨(i 0).val / 2000, ht⟩, Gen.flush6_5 _, ?_⟩
  rw [mem_blk6]
  intro a
  match a with
  | ⟨0, _⟩ =>
    show win6_5.index ⟨(i 0).val / 2000, ht⟩ (0 : Fin 2) * 2000 ≤ (i 0).val ∧ (i 0).val < win6_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win6_5.index ⟨(i 0).val / 2000, ht⟩ (1 : Fin 2) * 64 ≤ (i 1).val ∧ (i 1).val < win6_5.index ⟨(i 0).val / 2000, ht⟩ (1 : Fin 2) * 64 + 64
    rw [e11]; omega

/-- After region 6 its result array holds `(max (x · W1 + b1, 0)) · W2 + b2` of the five arrays the region was entered
    with. -/
theorem final6 (c : Dev nD) :
    (Gen.dat6 V c).arrAt 5 cfg6.N
      = Cert.SelfLoop.rowBias (Cert.Linear.matProd (Cert.Linear.rowBiasMax (Cert.Linear.matProd (V c main_v85) (V c main_arg4))
          (V c main_v86) (Scalar.ofBits (F := Ideal) .f32 0x00000000#32)) (V c main_arg6)) (V c main_v87) :=
  (Gen.dat6 V c).arrAt_eq_of_cover 5
    (headOf (V c main_v85) (V c main_arg4) (V c main_v86) (V c main_arg6) (V c main_v87) (Scalar.ofBits (F := Ideal) .f32 0x00000000#32))
    (fun t _ => flushed6 V c t) cover6

end Cert.KernelIdeal.RegionValue

end
-- ==== Proof.KVal.lean ====
/-
  The value of the kernel program's result, walked back through its fourteen segments to the launch arguments.

  Each boundary's contents are read, buffer by buffer, for the buffers a later segment uses: a host stretch puts its
  operations' values in the buffers it writes and leaves the others; a transform region leaves the plain product of
  the features it found with that layer's weights in its output; a finalize region leaves the self-loop combine of
  the four arrays it found; and every region leaves the arrays it only reads, and every buffer it does not stage, as
  they were. Composed, the last region's output is the two dense layers applied to the third layer's features: the
  network in the kernel side's form, a function of the eight launch arguments.
-/
import proofs.«122488_j2800318677025_1_alg».proof.Proof.Gen.KernelIdeal.Frame
import proofs.«122488_j2800318677025_1_alg».proof.Proof.KStretch
import proofs.«122488_j2800318677025_1_alg».proof.Proof.KKeep
import proofs.«122488_j2800318677025_1_alg».proof.Proof.Bridge
import proofs.«122488_j2800318677025_1_alg».proof.Proof.RegionT
import proofs.«122488_j2800318677025_1_alg».proof.Proof.RegionF
import proofs.«122488_j2800318677025_1_alg».proof.Proof.RegionH

set_option maxRecDepth 16384

noncomputable section

namespace Cert.KernelIdeal.KVal

open Cert.KernelIdeal Cert.KernelIdeal.Gen Cert.KernelIdeal.Spec Cert.Bridge
open Idealize.ShloMosaic Idealize.ShloMosaic.TcCoe Idealize.SL.Sem Idealize.ShloMosaic.StableHlo

/-! ## Congruences of the named functions, argument by argument -/

theorem mat_congr {R K N : Nat} {x x' : (Cert.Linear.Mat R K).Idx → EReal} {w w' : (Cert.Linear.Mat K N).Idx → EReal}
    (hx : x = x') (hw : w = w') : Cert.Linear.matProd x w = Cert.Linear.matProd x' w' := by rw [hx, hw]

theorem agg_congr {s s' d d' : Arr Ideal S800000 .i32} {cb cb' : Arr Ideal S800000x128 .f32} {x x' : Arr Ideal S50000x128 .f32}
    (hs : s = s') (hd : d = d') (hc : cb = cb') (hx : x = x') : aggOf s d cb x = aggOf s' d' cb' x' := by rw [hs, hd, hc, hx]

theorem loop_congr {R K : Nat} {A A' H H' : (Cert.SelfLoop.Mat R K).Idx → EReal} {D D' : (Cert.SelfLoop.Mat R 1).Idx → EReal}
    {B B' : (Cert.SelfLoop.Mat 1 K).Idx → EReal} {z : EReal} (hA : A = A') (hH : H = H') (hD : D = D') (hB : B = B') :
    Cert.SelfLoop.selfLoopMax A H D B z = Cert.SelfLoop.selfLoopMax A' H' D' B' z := by rw [hA, hH, hD, hB]

variable (m : (ℓ : Loc nD τ sig) → Buf (Elt Ideal) ℓ) (ρ : Dev nD → PrngReg) (c : Dev nD)

/-! ## The launch contents of the arguments, and the layers' features -/

/-- The node features at launch. -/
abbrev aX : Arr Ideal S50000x128 .f32 := m ((c : Thread nD τ).loc main_arg0)
/-- The edge list at launch. -/
abbrev aE : Arr Ideal S2x800000 .i32 := m ((c : Thread nD τ).loc main_arg1)
/-- The stacked layer weights at launch. -/
abbrev aA2 : Arr Ideal S3x128x128 .f32 := m ((c : Thread nD τ).loc main_arg2)
/-- The stacked layer biases at launch. -/
abbrev aA3 : Arr Ideal S3x128 .f32 := m ((c : Thread nD τ).loc main_arg3)
/-- The first dense layer's weights at launch. -/
abbrev aA4 : Arr Ideal S128x512 .f32 := m ((c : Thread nD τ).loc main_arg4)
/-- The first dense layer's bias at launch. -/
abbrev aA5 : Arr Ideal S512 .f32 := m ((c : Thread nD τ).loc main_arg5)
/-- The second dense layer's weights at launch. -/
abbrev aA6 : Arr Ideal S512x64 .f32 := m ((c : Thread nD τ).loc main_arg6)
/-- The second dense layer's bias at launch. -/
abbrev aA7 : Arr Ideal S64 .f32 := m ((c : Thread nD τ).loc main_arg7)

/-- The features after layer 0. -/
def x1 : Arr Ideal S50000x128 .f32 := layerK (aE m c) (w0 (aA2 m c)) (b0 (aA3 m c)) (aX m c)
/-- The features after layer 1. -/
def x2 : Arr Ideal S50000x128 .f32 := layerK (aE m c) (w1 (aA2 m c)) (b1 (aA3 m c)) (x1 m c)
/-- The features after layer 2. -/
def x3 : Arr Ideal S50000x128 .f32 := layerK (aE m c) (w2 (aA2 m c)) (b2 (aA3 m c)) (x2 m c)

/-! ## The boundaries' contents, in order -/

theorem L1_v1 : W1 m ρ c (Proc.devRef .tc main_v1) = (srcOf (aE m c)) :=
  KStretch.s0_src (W0 m ρ c)
theorem L1_v3 : W1 m ρ c (Proc.devRef .tc main_v3) = (dstOf (aE m c)) :=
  KStretch.s0_dst (W0 m ρ c)
theorem L1_v12 : W1 m ρ c (Proc.devRef .tc main_v12) = (nsqCol (dstOf (aE m c))) :=
  KStretch.s0_nsq (W0 m ρ c)
theorem L1_v28 : W1 m ρ c (Proc.devRef .tc main_v28) = (shapeCast S800000x1 (coefOf (srcOf (aE m c)) (dstOf (aE m c))) shapeCasts_S800000_S800000x1) :=
  KStretch.s0_coef (W0 m ρ c)
theorem L1_v30 : W1 m ρ c (Proc.devRef .tc main_v30) = (w0 (aA2 m c)) :=
  KStretch.s0_w (W0 m ρ c)
theorem L1_v33 : W1 m ρ c (Proc.devRef .tc main_v33) = (biasRow (b0 (aA3 m c))) :=
  KStretch.s0_b (W0 m ρ c)
theorem L1_arg0 : W1 m ρ c (Proc.devRef .tc main_arg0) = (aX m c) :=
  KKeep.keep0_arg0 (W0 m ρ c)
theorem L1_arg2 : W1 m ρ c (Proc.devRef .tc main_arg2) = (aA2 m c) :=
  KKeep.keep0_arg2 (W0 m ρ c)
theorem L1_arg3 : W1 m ρ c (Proc.devRef .tc main_arg3) = (aA3 m c) :=
  KKeep.keep0_arg3 (W0 m ρ c)
theorem L1_arg4 : W1 m ρ c (Proc.devRef .tc main_arg4) = (aA4 m c) :=
  KKeep.keep0_arg4 (W0 m ρ c)
theorem L1_arg5 : W1 m ρ c (Proc.devRef .tc main_arg5) = (aA5 m c) :=
  KKeep.keep0_arg5 (W0 m ρ c)
theorem L1_arg6 : W1 m ρ c (Proc.devRef .tc main_arg6) = (aA6 m c) :=
  KKeep.keep0_arg6 (W0 m ρ c)
theorem L1_arg7 : W1 m ρ c (Proc.devRef .tc main_arg7) = (aA7 m c) :=
  KKeep.keep0_arg7 (W0 m ρ c)
theorem L2_v34 : W2 m ρ c (Proc.devRef .tc main_v34) = (Cert.Linear.matProd (R := 50000) (K := 128) (N := 128) (aX m c) (w0 (aA2 m c))) :=
  (W2_arr m ρ c 2).trans ((RegionValue.final0 (V1 m ρ) c).trans (mat_congr (L1_arg0 m ρ c) (L1_v30 m ρ c)))
theorem L2_v1 : W2 m ρ c (Proc.devRef .tc main_v1) = (srcOf (aE m c)) :=
  (W2_of_ne m ρ c main_v1 (by decide)).trans (L1_v1 m ρ c)
theorem L2_v3 : W2 m ρ c (Proc.devRef .tc main_v3) = (dstOf (aE m c)) :=
  (W2_of_ne m ρ c main_v3 (by decide)).trans (L1_v3 m ρ c)
theorem L2_v12 : W2 m ρ c (Proc.devRef .tc main_v12) = (nsqCol (dstOf (aE m c))) :=
  (W2_of_ne m ρ c main_v12 (by decide)).trans (L1_v12 m ρ c)
theorem L2_v28 : W2 m ρ c (Proc.devRef .tc main_v28) = (shapeCast S800000x1 (coefOf (srcOf (aE m c)) (dstOf (aE m c))) shapeCasts_S800000_S800000x1) :=
  (W2_of_ne m ρ c main_v28 (by decide)).trans (L1_v28 m ρ c)
theorem L2_v33 : W2 m ρ c (Proc.devRef .tc main_v33) = (biasRow (b0 (aA3 m c))) :=
  (W2_of_ne m ρ c main_v33 (by decide)).trans (L1_v33 m ρ c)
theorem L2_arg2 : W2 m ρ c (Proc.devRef .tc main_arg2) = (aA2 m c) :=
  (W2_of_ne m ρ c main_arg2 (by decide)).trans (L1_arg2 m ρ c)
theorem L2_arg3 : W2 m ρ c (Proc.devRef .tc main_arg3) = (aA3 m c) :=
  (W2_of_ne m ρ c main_arg3 (by decide)).trans (L1_arg3 m ρ c)
theorem L2_arg4 : W2 m ρ c (Proc.devRef .tc main_arg4) = (aA4 m c) :=
  (W2_of_ne m ρ c main_arg4 (by decide)).trans (L1_arg4 m ρ c)
theorem L2_arg5 : W2 m ρ c (Proc.devRef .tc main_arg5) = (aA5 m c) :=
  (W2_of_ne m ρ c main_arg5 (by decide)).trans (L1_arg5 m ρ c)
theorem L2_arg6 : W2 m ρ c (Proc.devRef .tc main_arg6) = (aA6 m c) :=
  (W2_of_ne m ρ c main_arg6 (by decide)).trans (L1_arg6 m ρ c)
theorem L2_arg7 : W2 m ρ c (Proc.devRef .tc main_arg7) = (aA7 m c) :=
  (W2_of_ne m ρ c main_arg7 (by decide)).trans (L1_arg7 m ρ c)
theorem L3_v46 : W3 m ρ c (Proc.devRef .tc main_v46) = (aggOf (srcOf (aE m c)) (dstOf (aE m c)) (cB (srcOf (aE m c)) (dstOf (aE m c))) (Cert.Linear.matProd (R := 50000) (K := 128) (N := 128) (aX m c) (w0 (aA2 m c)))) :=
  (KStretch.s1_agg (W2 m ρ c)).trans (agg_congr (L2_v1 m ρ c) (L2_v3 m ρ c) (congrArg spread (L2_v28 m ρ c)) (L2_v34 m ρ c))
theorem L3_v34 : W3 m ρ c (Proc.devRef .tc main_v34) = (Cert.Linear.matProd (R := 50000) (K := 128) (N := 128) (aX m c) (w0 (aA2 m c))) :=
  (KKeep.keep1_v34 (W2 m ρ c)).trans (L2_v34 m ρ c)
theorem L3_v12 : W3 m ρ c (Proc.devRef .tc main_v12) = (nsqCol (dstOf (aE m c))) :=
  (KKeep.keep1_v12 (W2 m ρ c)).trans (L2_v12 m ρ c)
theorem L3_v33 : W3 m ρ c (Proc.devRef .tc main_v33) = (biasRow (b0 (aA3 m c))) :=
  (KKeep.keep1_v33 (W2 m ρ c)).trans (L2_v33 m ρ c)
theorem L3_v1 : W3 m ρ c (Proc.devRef .tc main_v1) = (srcOf (aE m c)) :=
  (KKeep.keep1_v1 (W2 m ρ c)).trans (L2_v1 m ρ c)
theorem L3_v3 : W3 m ρ c (Proc.devRef .tc main_v3) = (dstOf (aE m c)) :=
  (KKeep.keep1_v3 (W2 m ρ c)).trans (L2_v3 m ρ c)
theorem L3_v28 : W3 m ρ c (Proc.devRef .tc main_v28) = (shapeCast S800000x1 (coefOf (srcOf (aE m c)) (dstOf (aE m c))) shapeCasts_S800000_S800000x1) :=
  (KKeep.keep1_v28 (W2 m ρ c)).trans (L2_v28 m ρ c)
theorem L3_arg2 : W3 m ρ c (Proc.devRef .tc main_arg2) = (aA2 m c) :=
  (KKeep.keep1_arg2 (W2 m ρ c)).trans (L2_arg2 m ρ c)
theorem L3_arg3 : W3 m ρ c (Proc.devRef .tc main_arg3) = (aA3 m c) :=
  (KKeep.keep1_arg3 (W2 m ρ c)).trans (L2_arg3 m ρ c)
theorem L3_arg4 : W3 m ρ c (Proc.devRef .tc main_arg4) = (aA4 m c) :=
  (KKeep.keep1_arg4 (W2 m ρ c)).trans (L2_arg4 m ρ c)
theorem L3_arg5 : W3 m ρ c (Proc.devRef .tc main_arg5) = (aA5 m c) :=
  (KKeep.keep1_arg5 (W2 m ρ c)).trans (L2_arg5 m ρ c)
theorem L3_arg6 : W3 m ρ c (Proc.devRef .tc main_arg6) = (aA6 m c) :=
  (KKeep.keep1_arg6 (W2 m ρ c)).trans (L2_arg6 m ρ c)
theorem L3_arg7 : W3 m ρ c (Proc.devRef .tc main_arg7) = (aA7 m c) :=
  (KKeep.keep1_arg7 (W2 m ρ c)).trans (L2_arg7 m ρ c)
theorem L4_v47 : W4 m ρ c (Proc.devRef .tc main_v47) = (x1 m c) :=
  (W4_arr m ρ c 4).trans ((RegionValue.final1 (V3 m ρ) c).trans (loop_congr (L3_v46 m ρ c) (L3_v34 m ρ c) (L3_v12 m ρ c) (L3_v33 m ρ c)))
theorem L4_v12 : W4 m ρ c (Proc.devRef .tc main_v12) = (nsqCol (dstOf (aE m c))) :=
  ((W4_arr m ρ c 2).trans (((dat1 (V3 m ρ) c).arrAt_in 2 rfl _).trans (A_eq1 (V3 m ρ) c 2))).trans (L3_v12 m ρ c)
theorem L4_v1 : W4 m ρ c (Proc.devRef .tc main_v1) = (srcOf (aE m c)) :=
  (W4_of_ne m ρ c main_v1 (by decide)).trans (L3_v1 m ρ c)
theorem L4_v3 : W4 m ρ c (Proc.devRef .tc main_v3) = (dstOf (aE m c)) :=
  (W4_of_ne m ρ c main_v3 (by decide)).trans (L3_v3 m ρ c)
theorem L4_v28 : W4 m ρ c (Proc.devRef .tc main_v28) = (shapeCast S800000x1 (coefOf (srcOf (aE m c)) (dstOf (aE m c))) shapeCasts_S800000_S800000x1) :=
  (W4_of_ne m ρ c main_v28 (by decide)).trans (L3_v28 m ρ c)
theorem L4_arg2 : W4 m ρ c (Proc.devRef .tc main_arg2) = (aA2 m c) :=
  (W4_of_ne m ρ c main_arg2 (by decide)).trans (L3_arg2 m ρ c)
theorem L4_arg3 : W4 m ρ c (Proc.devRef .tc main_arg3) = (aA3 m c) :=
  (W4_of_ne m ρ c main_arg3 (by decide)).trans (L3_arg3 m ρ c)
theorem L4_arg4 : W4 m ρ c (Proc.devRef .tc main_arg4) = (aA4 m c) :=
  (W4_of_ne m ρ c main_arg4 (by decide)).trans (L3_arg4 m ρ c)
theorem L4_arg5 : W4 m ρ c (Proc.devRef .tc main_arg5) = (aA5 m c) :=
  (W4_of_ne m ρ c main_arg5 (by decide)).trans (L3_arg5 m ρ c)
theorem L4_arg6 : W4 m ρ c (Proc.devRef .tc main_arg6) = (aA6 m c) :=
  (W4_of_ne m ρ c main_arg6 (by decide)).trans (L3_arg6 m ρ c)
theorem L4_arg7 : W4 m ρ c (Proc.devRef .tc main_arg7) = (aA7 m c) :=
  (W4_of_ne m ρ c main_arg7 (by decide)).trans (L3_arg7 m ρ c)
theorem L5_v49 : W5 m ρ c (Proc.devRef .tc main_v49) = (w1 (aA2 m c)) :=
  (KStretch.s2_w (W4 m ρ c)).trans (congrArg w1 (L4_arg2 m ρ c))
theorem L5_v52 : W5 m ρ c (Proc.devRef .tc main_v52) = (biasRow (b1 (aA3 m c))) :=
  (KStretch.s2_b (W4 m ρ c)).trans (congrArg (fun a => biasRow (b1 a)) (L4_arg3 m ρ c))
theorem L5_v47 : W5 m ρ c (Proc.devRef .tc main_v47) = (x1 m c) :=
  (KKeep.keep2_v47 (W4 m ρ c)).trans (L4_v47 m ρ c)
theorem L5_v1 : W5 m ρ c (Proc.devRef .tc main_v1) = (srcOf (aE m c)) :=
  (KKeep.keep2_v1 (W4 m ρ c)).trans (L4_v1 m ρ c)
theorem L5_v3 : W5 m ρ c (Proc.devRef .tc main_v3) = (dstOf (aE m c)) :=
  (KKeep.keep2_v3 (W4 m ρ c)).trans (L4_v3 m ρ c)
theorem L5_v12 : W5 m ρ c (Proc.devRef .tc main_v12) = (nsqCol (dstOf (aE m c))) :=
  (KKeep.keep2_v12 (W4 m ρ c)).trans (L4_v12 m ρ c)
theorem L5_v28 : W5 m ρ c (Proc.devRef .tc main_v28) = (shapeCast S800000x1 (coefOf (srcOf (aE m c)) (dstOf (aE m c))) shapeCasts_S800000_S800000x1) :=
  (KKeep.keep2_v28 (W4 m ρ c)).trans (L4_v28 m ρ c)
theorem L5_arg2 : W5 m ρ c (Proc.devRef .tc main_arg2) = (aA2 m c) :=
  (KKeep.keep2_arg2 (W4 m ρ c)).trans (L4_arg2 m ρ c)
theorem L5_arg3 : W5 m ρ c (Proc.devRef .tc main_arg3) = (aA3 m c) :=
  (KKeep.keep2_arg3 (W4 m ρ c)).trans (L4_arg3 m ρ c)
theorem L5_arg4 : W5 m ρ c (Proc.devRef .tc main_arg4) = (aA4 m c) :=
  (KKeep.keep2_arg4 (W4 m ρ c)).trans (L4_arg4 m ρ c)
theorem L5_arg5 : W5 m ρ c (Proc.devRef .tc main_arg5) = (aA5 m c) :=
  (KKeep.keep2_arg5 (W4 m ρ c)).trans (L4_arg5 m ρ c)
theorem L5_arg6 : W5 m ρ c (Proc.devRef .tc main_arg6) = (aA6 m c) :=
  (KKeep.keep2_arg6 (W4 m ρ c)).trans (L4_arg6 m ρ c)
theorem L5_arg7 : W5 m ρ c (Proc.devRef .tc main_arg7) = (aA7 m c) :=
  (KKeep.keep2_arg7 (W4 m ρ c)).trans (L4_arg7 m ρ c)
theorem L6_v53 : W6 m ρ c (Proc.devRef .tc main_v53) = (Cert.Linear.matProd (R := 50000) (K := 128) (N := 128) (x1 m c) (w1 (aA2 m c))) :=
  (W6_arr m ρ c 2).trans ((RegionValue.final2 (V5 m ρ) c).trans (mat_congr (L5_v47 m ρ c) (L5_v49 m ρ c)))
theorem L6_v1 : W6 m ρ c (Proc.devRef .tc main_v1) = (srcOf (aE m c)) :=
  (W6_of_ne m ρ c main_v1 (by decide)).trans (L5_v1 m ρ c)
theorem L6_v3 : W6 m ρ c (Proc.devRef .tc main_v3) = (dstOf (aE m c)) :=
  (W6_of_ne m ρ c main_v3 (by decide)).trans (L5_v3 m ρ c)
theorem L6_v12 : W6 m ρ c (Proc.devRef .tc main_v12) = (nsqCol (dstOf (aE m c))) :=
  (W6_of_ne m ρ c main_v12 (by decide)).trans (L5_v12 m ρ c)
theorem L6_v28 : W6 m ρ c (Proc.devRef .tc main_v28) = (shapeCast S800000x1 (coefOf (srcOf (aE m c)) (dstOf (aE m c))) shapeCasts_S800000_S800000x1) :=
  (W6_of_ne m ρ c main_v28 (by decide)).trans (L5_v28 m ρ c)
theorem L6_v52 : W6 m ρ c (Proc.devRef .tc main_v52) = (biasRow (b1 (aA3 m c))) :=
  (W6_of_ne m ρ c main_v52 (by decide)).trans (L5_v52 m ρ c)
theorem L6_arg2 : W6 m ρ c (Proc.devRef .tc main_arg2) = (aA2 m c) :=
  (W6_of_ne m ρ c main_arg2 (by decide)).trans (L5_arg2 m ρ c)
theorem L6_arg3 : W6 m ρ c (Proc.devRef .tc main_arg3) = (aA3 m c) :=
  (W6_of_ne m ρ c main_arg3 (by decide)).trans (L5_arg3 m ρ c)
theorem L6_arg4 : W6 m ρ c (Proc.devRef .tc main_arg4) = (aA4 m c) :=
  (W6_of_ne m ρ c main_arg4 (by decide)).trans (L5_arg4 m ρ c)
theorem L6_arg5 : W6 m ρ c (Proc.devRef .tc main_arg5) = (aA5 m c) :=
  (W6_of_ne m ρ c main_arg5 (by decide)).trans (L5_arg5 m ρ c)
theorem L6_arg6 : W6 m ρ c (Proc.devRef .tc main_arg6) = (aA6 m c) :=
  (W6_of_ne m ρ c main_arg6 (by decide)).trans (L5_arg6 m ρ c)
theorem L6_arg7 : W6 m ρ c (Proc.devRef .tc main_arg7) = (aA7 m c) :=
  (W6_of_ne m ρ c main_arg7 (by decide)).trans (L5_arg7 m ρ c)
theorem L7_v65 : W7 m ρ c (Proc.devRef .tc main_v65) = (aggOf (srcOf (aE m c)) (dstOf (aE m c)) (cB (srcOf (aE m c)) (dstOf (aE m c))) (Cert.Linear.matProd (R := 50000) (K := 128) (N := 128) (x1 m c) (w1 (aA2 m c)))) :=
  (KStretch.s3_agg (W6 m ρ c)).trans (agg_congr (L6_v1 m ρ c) (L6_v3 m ρ c) (congrArg spread (L6_v28 m ρ c)) (L6_v53 m ρ c))
theorem L7_v53 : W7 m ρ c (Proc.devRef .tc main_v53) = (Cert.Linear.matProd (R := 50000) (K := 128) (N := 128) (x1 m c) (w1 (aA2 m c))) :=
  (KKeep.keep3_v53 (W6 m ρ c)).trans (L6_v53 m ρ c)
theorem L7_v12 : W7 m ρ c (Proc.devRef .tc main_v12) = (nsqCol (dstOf (aE m c))) :=
  (KKeep.keep3_v12 (W6 m ρ c)).trans (L6_v12 m ρ c)
theorem L7_v52 : W7 m ρ c (Proc.devRef .tc main_v52) = (biasRow (b1 (aA3 m c))) :=
  (KKeep.keep3_v52 (W6 m ρ c)).trans (L6_v52 m ρ c)
theorem L7_v1 : W7 m ρ c (Proc.devRef .tc main_v1) = (srcOf (aE m c)) :=
  (KKeep.keep3_v1 (W6 m ρ c)).trans (L6_v1 m ρ c)
theorem L7_v3 : W7 m ρ c (Proc.devRef .tc main_v3) = (dstOf (aE m c)) :=
  (KKeep.keep3_v3 (W6 m ρ c)).trans (L6_v3 m ρ c)
theorem L7_v28 : W7 m ρ c (Proc.devRef .tc main_v28) = (shapeCast S800000x1 (coefOf (srcOf (aE m c)) (dstOf (aE m c))) shapeCasts_S800000_S800000x1) :=
  (KKeep.keep3_v28 (W6 m ρ c)).trans (L6_v28 m ρ c)
theorem L7_arg2 : W7 m ρ c (Proc.devRef .tc main_arg2) = (aA2 m c) :=
  (KKeep.keep3_arg2 (W6 m ρ c)).trans (L6_arg2 m ρ c)
theorem L7_arg3 : W7 m ρ c (Proc.devRef .tc main_arg3) = (aA3 m c) :=
  (KKeep.keep3_arg3 (W6 m ρ c)).trans (L6_arg3 m ρ c)
theorem L7_arg4 : W7 m ρ c (Proc.devRef .tc main_arg4) = (aA4 m c) :=
  (KKeep.keep3_arg4 (W6 m ρ c)).trans (L6_arg4 m ρ c)
theorem L7_arg5 : W7 m ρ c (Proc.devRef .tc main_arg5) = (aA5 m c) :=
  (KKeep.keep3_arg5 (W6 m ρ c)).trans (L6_arg5 m ρ c)
theorem L7_arg6 : W7 m ρ c (Proc.devRef .tc main_arg6) = (aA6 m c) :=
  (KKeep.keep3_arg6 (W6 m ρ c)).trans (L6_arg6 m ρ c)
theorem L7_arg7 : W7 m ρ c (Proc.devRef .tc main_arg7) = (aA7 m c) :=
  (KKeep.keep3_arg7 (W6 m ρ c)).trans (L6_arg7 m ρ c)
theorem L8_v66 : W8 m ρ c (Proc.devRef .tc main_v66) = (x2 m c) :=
  (W8_arr m ρ c 4).trans ((RegionValue.final3 (V7 m ρ) c).trans (loop_congr (L7_v65 m ρ c) (L7_v53 m ρ c) (L7_v12 m ρ c) (L7_v52 m ρ c)))
theorem L8_v12 : W8 m ρ c (Proc.devRef .tc main_v12) = (nsqCol (dstOf (aE m c))) :=
  ((W8_arr m ρ c 2).trans (((dat3 (V7 m ρ) c).arrAt_in 2 rfl _).trans (A_eq3 (V7 m ρ) c 2))).trans (L7_v12 m ρ c)
theorem L8_v1 : W8 m ρ c (Proc.devRef .tc main_v1) = (srcOf (aE m c)) :=
  (W8_of_ne m ρ c main_v1 (by decide)).trans (L7_v1 m ρ c)
theorem L8_v3 : W8 m ρ c (Proc.devRef .tc main_v3) = (dstOf (aE m c)) :=
  (W8_of_ne m ρ c main_v3 (by decide)).trans (L7_v3 m ρ c)
theorem L8_v28 : W8 m ρ c (Proc.devRef .tc main_v28) = (shapeCast S800000x1 (coefOf (srcOf (aE m c)) (dstOf (aE m c))) shapeCasts_S800000_S800000x1) :=
  (W8_of_ne m ρ c main_v28 (by decide)).trans (L7_v28 m ρ c)
theorem L8_arg2 : W8 m ρ c (Proc.devRef .tc main_arg2) = (aA2 m c) :=
  (W8_of_ne m ρ c main_arg2 (by decide)).trans (L7_arg2 m ρ c)
theorem L8_arg3 : W8 m ρ c (Proc.devRef .tc main_arg3) = (aA3 m c) :=
  (W8_of_ne m ρ c main_arg3 (by decide)).trans (L7_arg3 m ρ c)
theorem L8_arg4 : W8 m ρ c (Proc.devRef .tc main_arg4) = (aA4 m c) :=
  (W8_of_ne m ρ c main_arg4 (by decide)).trans (L7_arg4 m ρ c)
theorem L8_arg5 : W8 m ρ c (Proc.devRef .tc main_arg5) = (aA5 m c) :=
  (W8_of_ne m ρ c main_arg5 (by decide)).trans (L7_arg5 m ρ c)
theorem L8_arg6 : W8 m ρ c (Proc.devRef .tc main_arg6) = (aA6 m c) :=
  (W8_of_ne m ρ c main_arg6 (by decide)).trans (L7_arg6 m ρ c)
theorem L8_arg7 : W8 m ρ c (Proc.devRef .tc main_arg7) = (aA7 m c) :=
  (W8_of_ne m ρ c main_arg7 (by decide)).trans (L7_arg7 m ρ c)
theorem L9_v68 : W9 m ρ c (Proc.devRef .tc main_v68) = (w2 (aA2 m c)) :=
  (KStretch.s4_w (W8 m ρ c)).trans (congrArg w2 (L8_arg2 m ρ c))
theorem L9_v71 : W9 m ρ c (Proc.devRef .tc main_v71) = (biasRow (b2 (aA3 m c))) :=
  (KStretch.s4_b (W8 m ρ c)).trans (congrArg (fun a => biasRow (b2 a)) (L8_arg3 m ρ c))
theorem L9_v66 : W9 m ρ c (Proc.devRef .tc main_v66) = (x2 m c) :=
  (KKeep.keep4_v66 (W8 m ρ c)).trans (L8_v66 m ρ c)
theorem L9_v1 : W9 m ρ c (Proc.devRef .tc main_v1) = (srcOf (aE m c)) :=
  (KKeep.keep4_v1 (W8 m ρ c)).trans (L8_v1 m ρ c)
theorem L9_v3 : W9 m ρ c (Proc.devRef .tc main_v3) = (dstOf (aE m c)) :=
  (KKeep.keep4_v3 (W8 m ρ c)).trans (L8_v3 m ρ c)
theorem L9_v12 : W9 m ρ c (Proc.devRef .tc main_v12) = (nsqCol (dstOf (aE m c))) :=
  (KKeep.keep4_v12 (W8 m ρ c)).trans (L8_v12 m ρ c)
theorem L9_v28 : W9 m ρ c (Proc.devRef .tc main_v28) = (shapeCast S800000x1 (coefOf (srcOf (aE m c)) (dstOf (aE m c))) shapeCasts_S800000_S800000x1) :=
  (KKeep.keep4_v28 (W8 m ρ c)).trans (L8_v28 m ρ c)
theorem L9_arg4 : W9 m ρ c (Proc.devRef .tc main_arg4) = (aA4 m c) :=
  (KKeep.keep4_arg4 (W8 m ρ c)).trans (L8_arg4 m ρ c)
theorem L9_arg5 : W9 m ρ c (Proc.devRef .tc main_arg5) = (aA5 m c) :=
  (KKeep.keep4_arg5 (W8 m ρ c)).trans (L8_arg5 m ρ c)
theorem L9_arg6 : W9 m ρ c (Proc.devRef .tc main_arg6) = (aA6 m c) :=
  (KKeep.keep4_arg6 (W8 m ρ c)).trans (L8_arg6 m ρ c)
theorem L9_arg7 : W9 m ρ c (Proc.devRef .tc main_arg7) = (aA7 m c) :=
  (KKeep.keep4_arg7 (W8 m ρ c)).trans (L8_arg7 m ρ c)
theorem L10_v72 : W10 m ρ c (Proc.devRef .tc main_v72) = (Cert.Linear.matProd (R := 50000) (K := 128) (N := 128) (x2 m c) (w2 (aA2 m c))) :=
  (W10_arr m ρ c 2).trans ((RegionValue.final4 (V9 m ρ) c).trans (mat_congr (L9_v66 m ρ c) (L9_v68 m ρ c)))
theorem L10_v1 : W10 m ρ c (Proc.devRef .tc main_v1) = (srcOf (aE m c)) :=
  (W10_of_ne m ρ c main_v1 (by decide)).trans (L9_v1 m ρ c)
theorem L10_v3 : W10 m ρ c (Proc.devRef .tc main_v3) = (dstOf (aE m c)) :=
  (W10_of_ne m ρ c main_v3 (by decide)).trans (L9_v3 m ρ c)
theorem L10_v12 : W10 m ρ c (Proc.devRef .tc main_v12) = (nsqCol (dstOf (aE m c))) :=
  (W10_of_ne m ρ c main_v12 (by decide)).trans (L9_v12 m ρ c)
theorem L10_v28 : W10 m ρ c (Proc.devRef .tc main_v28) = (shapeCast S800000x1 (coefOf (srcOf (aE m c)) (dstOf (aE m c))) shapeCasts_S800000_S800000x1) :=
  (W10_of_ne m ρ c main_v28 (by decide)).trans (L9_v28 m ρ c)
theorem L10_v71 : W10 m ρ c (Proc.devRef .tc main_v71) = (biasRow (b2 (aA3 m c))) :=
  (W10_of_ne m ρ c main_v71 (by decide)).trans (L9_v71 m ρ c)
theorem L10_arg4 : W10 m ρ c (Proc.devRef .tc main_arg4) = (aA4 m c) :=
  (W10_of_ne m ρ c main_arg4 (by decide)).trans (L9_arg4 m ρ c)
theorem L10_arg5 : W10 m ρ c (Proc.devRef .tc main_arg5) = (aA5 m c) :=
  (W10_of_ne m ρ c main_arg5 (by decide)).trans (L9_arg5 m ρ c)
theorem L10_arg6 : W10 m ρ c (Proc.devRef .tc main_arg6) = (aA6 m c) :=
  (W10_of_ne m ρ c main_arg6 (by decide)).trans (L9_arg6 m ρ c)
theorem L10_arg7 : W10 m ρ c (Proc.devRef .tc main_arg7) = (aA7 m c) :=
  (W10_of_ne m ρ c main_arg7 (by decide)).trans (L9_arg7 m ρ c)
theorem L11_v84 : W11 m ρ c (Proc.devRef .tc main_v84) = (aggOf (srcOf (aE m c)) (dstOf (aE m c)) (cB (srcOf (aE m c)) (dstOf (aE m c))) (Cert.Linear.matProd (R := 50000) (K := 128) (N := 128) (x2 m c) (w2 (aA2 m c)))) :=
  (KStretch.s5_agg (W10 m ρ c)).trans (agg_congr (L10_v1 m ρ c) (L10_v3 m ρ c) (congrArg spread (L10_v28 m ρ c)) (L10_v72 m ρ c))
theorem L11_v72 : W11 m ρ c (Proc.devRef .tc main_v72) = (Cert.Linear.matProd (R := 50000) (K := 128) (N := 128) (x2 m c) (w2 (aA2 m c))) :=
  (KKeep.keep5_v72 (W10 m ρ c)).trans (L10_v72 m ρ c)
theorem L11_v12 : W11 m ρ c (Proc.devRef .tc main_v12) = (nsqCol (dstOf (aE m c))) :=
  (KKeep.keep5_v12 (W10 m ρ c)).trans (L10_v12 m ρ c)
theorem L11_v71 : W11 m ρ c (Proc.devRef .tc main_v71) = (biasRow (b2 (aA3 m c))) :=
  (KKeep.keep5_v71 (W10 m ρ c)).trans (L10_v71 m ρ c)
theorem L11_arg4 : W11 m ρ c (Proc.devRef .tc main_arg4) = (aA4 m c) :=
  (KKeep.keep5_arg4 (W10 m ρ c)).trans (L10_arg4 m ρ c)
theorem L11_arg5 : W11 m ρ c (Proc.devRef .tc main_arg5) = (aA5 m c) :=
  (KKeep.keep5_arg5 (W10 m ρ c)).trans (L10_arg5 m ρ c)
theorem L11_arg6 : W11 m ρ c (Proc.devRef .tc main_arg6) = (aA6 m c) :=
  (KKeep.keep5_arg6 (W10 m ρ c)).trans (L10_arg6 m ρ c)
theorem L11_arg7 : W11 m ρ c (Proc.devRef .tc main_arg7) = (aA7 m c) :=
  (KKeep.keep5_arg7 (W10 m ρ c)).trans (L10_arg7 m ρ c)
theorem L12_v85 : W12 m ρ c (Proc.devRef .tc main_v85) = (x3 m c) :=
  (W12_arr m ρ c 4).trans ((RegionValue.final5 (V11 m ρ) c).trans (loop_congr (L11_v84 m ρ c) (L11_v72 m ρ c) (L11_v12 m ρ c) (L11_v71 m ρ c)))
theorem L12_arg4 : W12 m ρ c (Proc.devRef .tc main_arg4) = (aA4 m c) :=
  (W12_of_ne m ρ c main_arg4 (by decide)).trans (L11_arg4 m ρ c)
theorem L12_arg5 : W12 m ρ c (Proc.devRef .tc main_arg5) = (aA5 m c) :=
  (W12_of_ne m ρ c main_arg5 (by decide)).trans (L11_arg5 m ρ c)
theorem L12_arg6 : W12 m ρ c (Proc.devRef .tc main_arg6) = (aA6 m c) :=
  (W12_of_ne m ρ c main_arg6 (by decide)).trans (L11_arg6 m ρ c)
theorem L12_arg7 : W12 m ρ c (Proc.devRef .tc main_arg7) = (aA7 m c) :=
  (W12_of_ne m ρ c main_arg7 (by decide)).trans (L11_arg7 m ρ c)
theorem L13_v86 : W13 m ρ c (Proc.devRef .tc main_v86) = (shapeCast S1x512 (aA5 m c) shapeCasts_S512_S1x512) :=
  (KStretch.s6_b1 (W12 m ρ c)).trans (congrArg (fun a => shapeCast S1x512 a shapeCasts_S512_S1x512) (L12_arg5 m ρ c))
theorem L13_v87 : W13 m ρ c (Proc.devRef .tc main_v87) = (shapeCast S1x64 (aA7 m c) shapeCasts_S64_S1x64) :=
  (KStretch.s6_b2 (W12 m ρ c)).trans (congrArg (fun a => shapeCast S1x64 a shapeCasts_S64_S1x64) (L12_arg7 m ρ c))
theorem L13_v85 : W13 m ρ c (Proc.devRef .tc main_v85) = (x3 m c) :=
  (KKeep.keep6_v85 (W12 m ρ c)).trans (L12_v85 m ρ c)
theorem L13_arg4 : W13 m ρ c (Proc.devRef .tc main_arg4) = (aA4 m c) :=
  (KKeep.keep6_arg4 (W12 m ρ c)).trans (L12_arg4 m ρ c)
theorem L13_arg6 : W13 m ρ c (Proc.devRef .tc main_arg6) = (aA6 m c) :=
  (KKeep.keep6_arg6 (W12 m ρ c)).trans (L12_arg6 m ρ c)

/-- The result buffer at the last boundary holds the network's value in the kernel side's form. -/
theorem value : W14 m ρ c (Proc.devRef .tc main_v88)
    = kerVal (aX m c) (aE m c) (aA2 m c) (aA3 m c) (aA4 m c) (aA5 m c) (aA6 m c) (aA7 m c) :=
  (W14_arr m ρ c 5).trans ((RegionValue.final6 (V13 m ρ) c).trans (by
    rw [show V13 m ρ c main_v85 = x3 m c from L13_v85 m ρ c, show V13 m ρ c main_arg4 = aA4 m c from L13_arg4 m ρ c,
      show V13 m ρ c main_v86 = _ from L13_v86 m ρ c, show V13 m ρ c main_arg6 = aA6 m c from L13_arg6 m ρ c,
      show V13 m ρ c main_v87 = _ from L13_v87 m ρ c]
    rfl))

end Cert.KernelIdeal.KVal

end
-- ==== Proof.RefVal.lean ====
/-
  The reference's result, read as the network's value.

  The generated run of the reference states its result as one composed term of the launch arguments. That term is,
  operation for operation, three graph-convolution layers followed by the two dense layers, each layer built from the
  same named pieces (the edge rows, the degree normalisation, the wrapped index columns, the per-edge coefficient, the
  message passing, the layer's slice of the stacked weights and biases): unfolding the names gives the term back.
-/
import proofs.«122488_j2800318677025_1_alg».proof.Proof.Gen.ReferenceIdeal.Run
import proofs.«122488_j2800318677025_1_alg».proof.Proof.SpecR

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The run's composed result term is the three layers and the head, applied to the launch arguments. -/
theorem result_eq (m : (ℓ : Loc nD τ sig) → Buf (Elt F) ℓ) (c : Dev nD) :
    Value.res_out0 m c = Spec.refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show Value.res_main_v159 m c = _
  unfold Value.res_main_v159
  rfl

/-- The reference's run with its result named: every weakly fair execution terminates with the result buffer at the
    network's value of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = Spec.refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq m c), (h c).2⟩) (Value.run m ρ)

end Cert.ReferenceIdeal.RefValue

end
-- ==== Proof.lean ====
/-
  A three-layer graph convolution followed by two dense layers, computed two ways, gives one result over the extended
  reals.

  The kernel program computes each layer as a blocked matrix product x·W (ten blocks of 5000 rows), the message passing
  segment_sum((xW)[src] · norm[src]·norm[dst], dst) on the host, and a blocked finish max((agg + xW·norm²) + b, 0);
  the last two dense layers max(x·W₁ + b₁, 0)·W₂ + b₂ run in blocks of 2000 rows. The reference computes the same with
  whole-array operations. A row of a matrix product depends on that row of the left operand only, so the blocks of rows
  tile the whole product; a format change is the identity on the extended reals; and the remaining differences are how
  a column or a row is spread over a matrix. The host-side message passing is the same operations on both sides. No
  algebraic law that could fail at an infinity is used, so the precondition is never opened.

  The frames of the two kernel programs are the generated ones; the reference's frame is its generated run with the result
  dropped; the idealization rewrote nothing, so there is nothing to preserve.
-/
import proofs.«122488_j2800318677025_1_alg».proof.Defs
import proofs.«122488_j2800318677025_1_alg».proof.Proof.Gen.Kernel
import proofs.«122488_j2800318677025_1_alg».proof.Proof.Gen.Kernel.Frame
import proofs.«122488_j2800318677025_1_alg».proof.Proof.Gen.KernelIdeal
import proofs.«122488_j2800318677025_1_alg».proof.Proof.Gen.KernelIdeal.Frame
import proofs.«122488_j2800318677025_1_alg».proof.Proof.Gen.ReferenceIdeal
import proofs.«122488_j2800318677025_1_alg».proof.Proof.Gen.Pre_finite_inputs
import proofs.«122488_j2800318677025_1_alg».proof.Proof.KRun
import proofs.«122488_j2800318677025_1_alg».proof.Proof.KVal
import proofs.«122488_j2800318677025_1_alg».proof.Proof.Bridge
import proofs.«122488_j2800318677025_1_alg».proof.Proof.Gen.ReferenceIdeal.Run
import proofs.«122488_j2800318677025_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the eight arguments, the kernel program ends with the network's value in its
    blocked form, the reference with the network's value in its whole-array form, of the same arguments: one array. -/
theorem algebraic : Cert.algebraic_KernelIdeal_ReferenceIdeal := by
  intro m ρ m' ρ' _ hagree
  refine ⟨fun c => Cert.Bridge.kerVal (Cert.KernelIdeal.KVal.aX m c) (Cert.KernelIdeal.KVal.aE m c)
      (Cert.KernelIdeal.KVal.aA2 m c) (Cert.KernelIdeal.KVal.aA3 m c) (Cert.KernelIdeal.KVal.aA4 m c)
      (Cert.KernelIdeal.KVal.aA5 m c) (Cert.KernelIdeal.KVal.aA6 m c) (Cert.KernelIdeal.KVal.aA7 m c), ?_, ?_⟩
  · exact (θ_run Cert.KernelIdeal.defs _ _).mono
      (fun r h c => ⟨(h c).1.trans (Cert.KernelIdeal.KVal.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefValue.run (F := Ideal) m' ρ')
    obtain ⟨h0, h1, h2, h3, h4, h5, h6, h7⟩ := hagree c
    rw [h0, h1, h2, h3, h4, h5, h6, h7]
    exact (Cert.Bridge.kerVal_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
